-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S1x1 : Shape := ⟨2, ![1, 1]⟩
abbrev S100000x1 : Shape := ⟨2, ![100000, 1]⟩
abbrev S4000x1 : Shape := ⟨2, ![4000, 1]⟩
abbrev S4000 : Shape := ⟨1, ![4000]⟩
abbrev S100000 : Shape := ⟨1, ![100000]⟩

abbrev nBuf : Space → Nat
  | .hbm => 72
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x128, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S1x128, .f32⟩
  | .hbm, ⟨67, _⟩ => ⟨S128, .f32⟩
  | .hbm, ⟨68, _⟩ => ⟨S1x128, .f32⟩
  | .hbm, ⟨69, _⟩ => ⟨S1x1, .f32⟩
  | .hbm, ⟨70, _⟩ => ⟨S100000x1, .f32⟩
  | .hbm, ⟨71, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x1, .f32⟩
  | .local _ .vmem, ⟨30, _⟩ => ⟨S4000x1, .f32⟩
  | .local _ .vmem, ⟨31, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S128x1_S128 : S128x1.ShapeCasts S128
  shapeCasts_S1_S1x1 : S1.ShapeCasts S1x1
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x1.size a ≤ S100000x1.size a
  hwx2_8 : ∀ i : grid2.Coords, EltTy.bits .f32 = 32 ∨ (Rect.block (s := S100000x1) S4000x1.size (cc2_transform_8 i) (hinb2_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v45) S4000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x1 : Shape := ⟨2, ![100000, 1]⟩
abbrev S1x1 : Shape := ⟨2, ![1, 1]⟩
abbrev S100000 : Shape := ⟨1, ![100000]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .i1⟩
  | 48 => ⟨S_, .f32⟩
  | 49 => ⟨S100000x128, .f32⟩
  | 50 => ⟨S100000x128, .i1⟩
  | 51 => ⟨S_, .f32⟩
  | 52 => ⟨S_, .f32⟩
  | 53 => ⟨S100000x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .i1⟩
  | 88 => ⟨S_, .f32⟩
  | 89 => ⟨S100000x128, .f32⟩
  | 90 => ⟨S100000x128, .i1⟩
  | 91 => ⟨S_, .f32⟩
  | 92 => ⟨S_, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .i1⟩
  | _ => ⟨S100000x128, .f32⟩

abbrev hbmTy0_1 (i : Nat) : BufTy := match i % 128 with
  | 0 => ⟨S_, .f32⟩
  | 1 => ⟨S100000x128, .f32⟩
  | 2 => ⟨S100000x128, .i1⟩
  | 3 => ⟨S_, .f32⟩
  | 4 => ⟨S_, .f32⟩
  | 5 => ⟨S100000x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S100000x128, .f32⟩
  | 12 => ⟨S100000x1, .f32⟩
  | 13 => ⟨S1x1, .f32⟩
  | 14 => ⟨S100000x1, .f32⟩
  | 15 => ⟨S100000x1, .f32⟩
  | 16 => ⟨S100000x1, .f32⟩
  | 17 => ⟨S100000x1, .f32⟩
  | 18 => ⟨S_, .f32⟩
  | 19 => ⟨S100000x1, .f32⟩
  | 20 => ⟨S100000x1, .f32⟩
  | 21 => ⟨S_, .f32⟩
  | 22 => ⟨S100000x1, .f32⟩
  | 23 => ⟨S100000x1, .f32⟩
  | 24 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_cst_0 : Ref sig .tc := ⟨.hbm, 48, rfl⟩
abbrev main_call1_v2 : Ref sig .tc := ⟨.hbm, 49, rfl⟩
abbrev main_call1_v3 : Ref sig .tc := ⟨.hbm, 50, rfl⟩
abbrev main_call1_cst_1 : Ref sig .tc := ⟨.hbm, 51, rfl⟩
abbrev main_call1_call0_v0 : Ref sig .tc := ⟨.hbm, 52, rfl⟩
abbrev main_call1_call0_v1 : Ref sig .tc := ⟨.hbm, 53, rfl⟩
abbrev main_call1_v4 : Ref sig .tc := ⟨.hbm, 54, rfl⟩
abbrev main_call1_v5 : Ref sig .tc := ⟨.hbm, 55, rfl⟩
abbrev main_call1_cst_2 : Ref sig .tc := ⟨.hbm, 56, rfl⟩
abbrev main_call1_v6 : Ref sig .tc := ⟨.hbm, 57, rfl⟩
abbrev main_call1_v7 : Ref sig .tc := ⟨.hbm, 58, rfl⟩
abbrev main_v24 : Ref sig .tc := ⟨.hbm, 59, rfl⟩
abbrev main_c_1 : Ref sig .tc := ⟨.hbm, 60, rfl⟩
abbrev main_v25 : Ref sig .tc := ⟨.hbm, 61, rfl⟩
abbrev main_v26 : Ref sig .tc := ⟨.hbm, 62, rfl⟩
abbrev main_c_2 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_3 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_call2_cst : Ref sig .tc := ⟨.hbm, 78, rfl⟩
abbrev main_call2_v0 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call3_cst : Ref sig .tc := ⟨.hbm, 85, rfl⟩
abbrev main_call3_v0 : Ref sig .tc := ⟨.hbm, 86, rfl⟩
abbrev main_call3_v1 : Ref sig .tc := ⟨.hbm, 87, rfl⟩
abbrev main_call3_cst_0 : Ref sig .tc := ⟨.hbm, 88, rfl⟩
abbrev main_call3_v2 : Ref sig .tc := ⟨.hbm, 89, rfl⟩
abbrev main_call3_v3 : Ref sig .tc := ⟨.hbm, 90, rfl⟩
abbrev main_call3_cst_1 : Ref sig .tc := ⟨.hbm, 91, rfl⟩
abbrev main_call3_call0_v0 : Ref sig .tc := ⟨.hbm, 92, rfl⟩
abbrev main_call3_call0_v1 : Ref sig .tc := ⟨.hbm, 93, rfl⟩
abbrev main_call3_v4 : Ref sig .tc := ⟨.hbm, 94, rfl⟩
abbrev main_call3_v5 : Ref sig .tc := ⟨.hbm, 95, rfl⟩
abbrev main_call3_cst_2 : Ref sig .tc := ⟨.hbm, 96, rfl⟩
abbrev main_call3_v6 : Ref sig .tc := ⟨.hbm, 97, rfl⟩
abbrev main_call3_v7 : Ref sig .tc := ⟨.hbm, 98, rfl⟩
abbrev main_v45 : Ref sig .tc := ⟨.hbm, 99, rfl⟩
abbrev main_c_4 : Ref sig .tc := ⟨.hbm, 100, rfl⟩
abbrev main_v46 : Ref sig .tc := ⟨.hbm, 101, rfl⟩
abbrev main_v47 : Ref sig .tc := ⟨.hbm, 102, rfl⟩
abbrev main_c_5 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_6 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_call4_cst : Ref sig .tc := ⟨.hbm, 118, rfl⟩
abbrev main_call4_v0 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_call5_cst : Ref sig .tc := ⟨.hbm, 125, rfl⟩
abbrev main_call5_v0 : Ref sig .tc := ⟨.hbm, 126, rfl⟩
abbrev main_call5_v1 : Ref sig .tc := ⟨.hbm, 127, rfl⟩
abbrev main_call5_cst_0 : Ref sig .tc := ⟨.hbm, 128, rfl⟩
abbrev main_call5_v2 : Ref sig .tc := ⟨.hbm, 129, rfl⟩
abbrev main_call5_v3 : Ref sig .tc := ⟨.hbm, 130, rfl⟩
abbrev main_call5_cst_1 : Ref sig .tc := ⟨.hbm, 131, rfl⟩
abbrev main_call5_call0_v0 : Ref sig .tc := ⟨.hbm, 132, rfl⟩
abbrev main_call5_call0_v1 : Ref sig .tc := ⟨.hbm, 133, rfl⟩
abbrev main_call5_v4 : Ref sig .tc := ⟨.hbm, 134, rfl⟩
abbrev main_call5_v5 : Ref sig .tc := ⟨.hbm, 135, rfl⟩
abbrev main_call5_cst_2 : Ref sig .tc := ⟨.hbm, 136, rfl⟩
abbrev main_call5_v6 : Ref sig .tc := ⟨.hbm, 137, rfl⟩
abbrev main_call5_v7 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_cst_7 : Ref sig .tc := ⟨.hbm, 146, rfl⟩
abbrev main_v73 : Ref sig .tc := ⟨.hbm, 147, rfl⟩
abbrev main_v74 : Ref sig .tc := ⟨.hbm, 148, rfl⟩
abbrev main_cst_8 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's program run to its end with its RESULT named: three launches of the layer kernels among four
  stretches of host operations. Every weakly fair execution terminates, and in the final memory the result buffer holds
  what the last stretch of host operations leaves there (`W7`, the last of the buffer contents at the segment
  boundaries), and the argument arrays are as launched.

  The run is the library's theorem for a program that is a list of segments. Besides the segments themselves (each
  launch's own obligation is its kernel body's, proved with the frame) it asks four things, proved below in this order:
  that the launch's ghost element yields the launches' staging-cell tokens; that the thread states chain — each
  segment's exit state is the next segment's entry state, and the last is every unscoped buffer at `W7` beside a core
  that owes nothing; that what the launch deals to a core is the first thread state; and that the last thread state,
  held against a final machine state, reads that state's memory at `W7` on every unscoped buffer. The post then reads
  the result buffer and the sixteen arguments out of that.
-/
import proofs.«174884_j82179904242305_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the seven segments (host stretch, launch, host stretch, launch, host stretch, launch, host stretch):
    the result buffer and every argument at the last boundary's contents, the arguments' being their launch contents. -/
theorem run_value : θ_run defs (onTc (τ := τ) (main (F := F))) ⟨m, fun _ => 0, ρ⟩ (fun r => ∀ c : Dev nD,
      r.2.mem ((c.tc : Thread nD τ).loc main_v46) = W7 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?launch)
    (T₀ := fun c => iprop(StableHlo.held (c : Thread nD τ) (Pipeline.ucRefs τ sig) (W0 m ρ c) ∗ R c)) (Tₙ := Tₙ m ρ)
    (hch := ?chain) (hinit := ?first)
    (QY := fun c s => ∀ b ∈ Pipeline.ucRefs τ sig, s.mem (((c : Thread nD τ)).1, b) = W7 m ρ c b)
    (hfin := ?last)
    (hQ := fun s h c =>
      ⟨h c _ (mem_uc main_v46 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)
  case launch =>
    -- the launch's ghost element IS the launches' initial staging-cell tokens; no core needs anything beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case chain =>
    -- each segment leaves every unscoped buffer at the next boundary's contents, which is what the next segment
    -- is entered from: seven identities; after the last stretch the state is regrouped as (buffers at `W7`, the
    -- generator register) beside (nothing owed)
    refine ⟨fun _ => .rfl, fun _ => .rfl, fun _ => .rfl, fun _ => .rfl, fun _ => .rfl, fun _ => .rfl, fun _ => .rfl, fun c => ?_⟩
    dsimp only [Pipeline.Seg.post, hseg, Pipeline.HostSeg.ofOps]
    iintro ⟨Hh, Hp, HO⟩
    isplitl [Hh Hp]
    · isplitl [Hh]; · iexact Hh
      iexact Hp
    iexact HO
  case first =>
    -- core by core: the unscoped buffers at the launch memory are the buffers held at `W0`; the generator register
    -- at its launch state is at SOME state; nothing is owed
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case last =>
    -- holding every unscoped buffer at `W7` against a machine state says that state's memory is `W7` there
    intro c s'
    iintro ⟨⟨Hh, -⟩, HSI⟩
    unfold StableHlo.held
    imodintro
    iapply (pointsTo_read_all (Pipeline.ucRefs τ sig) (fun b => (((c : Thread nD τ)).1, b)) (W7 m ρ c) s')
    isplitl [Hh] <;> iassumption

end Cert.KernelIdeal.Hand

end
-- ==== Proof.KernelHost.lean ====
/-
  The host operations around the three launches, read back. The two rows of the edge list are cut out once (source and
  destination node of every edge, a negative source index wrapped by the node count); before each launch the
  neighbour sum of the current node features is formed — each edge's source row gathered, then added into its
  destination row of a zero array — and each bias vector is laid out as a one-row matrix; the head's weight column is
  laid out as a row and its bias as a `[1, 1]` matrix; after the last launch the result column is flattened. Each such
  buffer after a stretch of host operations is the named function of the buffers the stretch started from, and every
  other buffer a later launch reads is left as it was.
-/
import proofs.«174884_j82179904242305_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- Every edge's source node: the first row of the edge list. -/
def srcV (ei : (⟨S2x1600000, .i32⟩ : BufTy).Contents (Elt F)) : (⟨S1600000, .i32⟩ : BufTy).Contents (Elt F) :=
  fun i => shapeCast S1600000 (extractStridedSlice S1x1600000 ![0, 0] ei slices_S2x1600000_S1x1600000_0_0) shapeCasts_S1x1600000_S1600000 i

/-- Every edge's destination node: the second row of the edge list. -/
def dstV (ei : (⟨S2x1600000, .i32⟩ : BufTy).Contents (Elt F)) : (⟨S1600000, .i32⟩ : BufTy).Contents (Elt F) :=
  fun i => shapeCast S1600000 (extractStridedSlice S1x1600000 ![1, 0] ei slices_S2x1600000_S1x1600000_1_0) shapeCasts_S1x1600000_S1600000 i

/-- The neighbour sum: row `i` is the sum of the rows `x (s e)` over the edges `e` with `d e = i` (a negative `s e`
    wrapped by the node count first). -/
def aggV (x : (⟨S100000x128, .f32⟩ : BufTy).Contents (Elt F)) (s d : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 x
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A bias vector as a one-row matrix. -/
def rowV (b : (⟨S128, .f32⟩ : BufTy).Contents (Elt F)) : (⟨S1x128, .f32⟩ : BufTy).Contents (Elt F) :=
  fun i => shapeCast S1x128 b shapeCasts_S128_S1x128 i

/-- The head's weight column as a one-row matrix. -/
def lwRowV (w : (⟨S128x1, .f32⟩ : BufTy).Contents (Elt F)) : (⟨S1x128, .f32⟩ : BufTy).Contents (Elt F) :=
  fun i => shapeCast S1x128 (fun j => shapeCast S128 w shapeCasts_S128x1_S128 j) shapeCasts_S128_S1x128 i

/-- The head's bias as a `[1, 1]` matrix. -/
def lbV (b : (⟨S1, .f32⟩ : BufTy).Contents (Elt F)) : (⟨S1x1, .f32⟩ : BufTy).Contents (Elt F) :=
  fun i => shapeCast S1x1 b shapeCasts_S1_S1x1 i

/-- The result column flattened. -/
def flatV (r : (⟨S100000x1, .f32⟩ : BufTy).Contents (Elt F)) : (⟨S100000, .f32⟩ : BufTy).Contents (Elt F) :=
  fun i => shapeCast S100000 r shapeCasts_S100000x1_S100000 i

/-! ## Each stretch, buffer by buffer -/

theorem s0_v1 (W : Valuation τ sig (Elt F)) :
    after hostOps0 W (Proc.devRef .tc main_v1) = srcV (W (Proc.devRef .tc main_arg1)) := by
  after_results_simp
  try rfl
theorem s0_v3 (W : Valuation τ sig (Elt F)) :
    after hostOps0 W (Proc.devRef .tc main_v3) = dstV (W (Proc.devRef .tc main_arg1)) := by
  after_results_simp
  try rfl
theorem s0_v13 (W : Valuation τ sig (Elt F)) :
    after hostOps0 W (Proc.devRef .tc main_v13) = aggV (W (Proc.devRef .tc main_arg0)) (srcV (W (Proc.devRef .tc main_arg1))) (dstV (W (Proc.devRef .tc main_arg1))) := by
  after_results_simp
  try rfl
theorem s0_v14 (W : Valuation τ sig (Elt F)) :
    after hostOps0 W (Proc.devRef .tc main_v14) = rowV (W (Proc.devRef .tc main_arg3)) := by
  after_results_simp
  try rfl
theorem s0_v15 (W : Valuation τ sig (Elt F)) :
    after hostOps0 W (Proc.devRef .tc main_v15) = rowV (W (Proc.devRef .tc main_arg5)) := by
  after_results_simp
  try rfl
theorem s1_v26 (W : Valuation τ sig (Elt F)) :
    after hostOps1 W (Proc.devRef .tc main_v26) = aggV (W (Proc.devRef .tc main_v16)) (W (Proc.devRef .tc main_v1)) (W (Proc.devRef .tc main_v3)) := by
  after_results_simp
  try rfl
theorem s1_v27 (W : Valuation τ sig (Elt F)) :
    after hostOps1 W (Proc.devRef .tc main_v27) = rowV (W (Proc.devRef .tc main_arg7)) := by
  after_results_simp
  try rfl
theorem s1_v28 (W : Valuation τ sig (Elt F)) :
    after hostOps1 W (Proc.devRef .tc main_v28) = rowV (W (Proc.devRef .tc main_arg9)) := by
  after_results_simp
  try rfl
theorem s2_v39 (W : Valuation τ sig (Elt F)) :
    after hostOps2 W (Proc.devRef .tc main_v39) = aggV (W (Proc.devRef .tc main_v29)) (W (Proc.devRef .tc main_v1)) (W (Proc.devRef .tc main_v3)) := by
  after_results_simp
  try rfl
theorem s2_v40 (W : Valuation τ sig (Elt F)) :
    after hostOps2 W (Proc.devRef .tc main_v40) = rowV (W (Proc.devRef .tc main_arg11)) := by
  after_results_simp
  try rfl
theorem s2_v41 (W : Valuation τ sig (Elt F)) :
    after hostOps2 W (Proc.devRef .tc main_v41) = rowV (W (Proc.devRef .tc main_arg13)) := by
  after_results_simp
  try rfl
theorem s2_v43 (W : Valuation τ sig (Elt F)) :
    after hostOps2 W (Proc.devRef .tc main_v43) = lwRowV (W (Proc.devRef .tc main_arg14)) := by
  after_results_simp
  try rfl
theorem s2_v44 (W : Valuation τ sig (Elt F)) :
    after hostOps2 W (Proc.devRef .tc main_v44) = lbV (W (Proc.devRef .tc main_arg15)) := by
  after_results_simp
  try rfl
theorem s3_v46 (W : Valuation τ sig (Elt F)) :
    after hostOps3 W (Proc.devRef .tc main_v46) = flatV (W (Proc.devRef .tc main_v45)) := by
  after_results_simp
  try rfl
theorem k0_arg0 (W : Valuation τ sig (Elt F)) :
    after hostOps0 W (Proc.devRef .tc main_arg0) = W (Proc.devRef .tc main_arg0) := by
  after_results_simp
theorem k0_arg2 (W : Valuation τ sig (Elt F)) :
    after hostOps0 W (Proc.devRef .tc main_arg2) = W (Proc.devRef .tc main_arg2) := by
  after_results_simp
theorem k0_arg4 (W : Valuation τ sig (Elt F)) :
    after hostOps0 W (Proc.devRef .tc main_arg4) = W (Proc.devRef .tc main_arg4) := by
  after_results_simp
theorem k0_arg6 (W : Valuation τ sig (Elt F)) :
    after hostOps0 W (Proc.devRef .tc main_arg6) = W (Proc.devRef .tc main_arg6) := by
  after_results_simp
theorem k0_arg7 (W : Valuation τ sig (Elt F)) :
    after hostOps0 W (Proc.devRef .tc main_arg7) = W (Proc.devRef .tc main_arg7) := by
  after_results_simp
theorem k0_arg8 (W : Valuation τ sig (Elt F)) :
    after hostOps0 W (Proc.devRef .tc main_arg8) = W (Proc.devRef .tc main_arg8) := by
  after_results_simp
theorem k0_arg9 (W : Valuation τ sig (Elt F)) :
    after hostOps0 W (Proc.devRef .tc main_arg9) = W (Proc.devRef .tc main_arg9) := by
  after_results_simp
theorem k0_arg10 (W : Valuation τ sig (Elt F)) :
    after hostOps0 W (Proc.devRef .tc main_arg10) = W (Proc.devRef .tc main_arg10) := by
  after_results_simp
theorem k0_arg11 (W : Valuation τ sig (Elt F)) :
    after hostOps0 W (Proc.devRef .tc main_arg11) = W (Proc.devRef .tc main_arg11) := by
  after_results_simp
theorem k0_arg12 (W : Valuation τ sig (Elt F)) :
    after hostOps0 W (Proc.devRef .tc main_arg12) = W (Proc.devRef .tc main_arg12) := by
  after_results_simp
theorem k0_arg13 (W : Valuation τ sig (Elt F)) :
    after hostOps0 W (Proc.devRef .tc main_arg13) = W (Proc.devRef .tc main_arg13) := by
  after_results_simp
theorem k0_arg14 (W : Valuation τ sig (Elt F)) :
    after hostOps0 W (Proc.devRef .tc main_arg14) = W (Proc.devRef .tc main_arg14) := by
  after_results_simp
theorem k0_arg15 (W : Valuation τ sig (Elt F)) :
    after hostOps0 W (Proc.devRef .tc main_arg15) = W (Proc.devRef .tc main_arg15) := by
  after_results_simp
theorem k1_v1 (W : Valuation τ sig (Elt F)) :
    after hostOps1 W (Proc.devRef .tc main_v1) = W (Proc.devRef .tc main_v1) := by
  after_results_simp
theorem k1_v3 (W : Valuation τ sig (Elt F)) :
    after hostOps1 W (Proc.devRef .tc main_v3) = W (Proc.devRef .tc main_v3) := by
  after_results_simp
theorem k1_v16 (W : Valuation τ sig (Elt F)) :
    after hostOps1 W (Proc.devRef .tc main_v16) = W (Proc.devRef .tc main_v16) := by
  after_results_simp
theorem k1_arg6 (W : Valuation τ sig (Elt F)) :
    after hostOps1 W (Proc.devRef .tc main_arg6) = W (Proc.devRef .tc main_arg6) := by
  after_results_simp
theorem k1_arg8 (W : Valuation τ sig (Elt F)) :
    after hostOps1 W (Proc.devRef .tc main_arg8) = W (Proc.devRef .tc main_arg8) := by
  after_results_simp
theorem k1_arg10 (W : Valuation τ sig (Elt F)) :
    after hostOps1 W (Proc.devRef .tc main_arg10) = W (Proc.devRef .tc main_arg10) := by
  after_results_simp
theorem k1_arg11 (W : Valuation τ sig (Elt F)) :
    after hostOps1 W (Proc.devRef .tc main_arg11) = W (Proc.devRef .tc main_arg11) := by
  after_results_simp
theorem k1_arg12 (W : Valuation τ sig (Elt F)) :
    after hostOps1 W (Proc.devRef .tc main_arg12) = W (Proc.devRef .tc main_arg12) := by
  after_results_simp
theorem k1_arg13 (W : Valuation τ sig (Elt F)) :
    after hostOps1 W (Proc.devRef .tc main_arg13) = W (Proc.devRef .tc main_arg13) := by
  after_results_simp
theorem k1_arg14 (W : Valuation τ sig (Elt F)) :
    after hostOps1 W (Proc.devRef .tc main_arg14) = W (Proc.devRef .tc main_arg14) := by
  after_results_simp
theorem k1_arg15 (W : Valuation τ sig (Elt F)) :
    after hostOps1 W (Proc.devRef .tc main_arg15) = W (Proc.devRef .tc main_arg15) := by
  after_results_simp
theorem k2_v29 (W : Valuation τ sig (Elt F)) :
    after hostOps2 W (Proc.devRef .tc main_v29) = W (Proc.devRef .tc main_v29) := by
  after_results_simp
theorem k2_arg10 (W : Valuation τ sig (Elt F)) :
    after hostOps2 W (Proc.devRef .tc main_arg10) = W (Proc.devRef .tc main_arg10) := by
  after_results_simp
theorem k2_arg12 (W : Valuation τ sig (Elt F)) :
    after hostOps2 W (Proc.devRef .tc main_arg12) = W (Proc.devRef .tc main_arg12) := by
  after_results_simp

end Cert.KernelIdeal.Hand

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibProduct.lean ====
/-
  A matrix product as ONE function of its two factors, on the extended reals, for any extents.

  * `product x w` is the `[a, k] × [k, b]` product: entry `(i, j)` is the sum over the contracted coordinate `e` of
    `x (i, e) · w (e, j)`; `square h` multiplies every entry by itself.
  * `matmul_rounded_eq`: the matrix unit's product into a zero accumulator of two `f32` factors each rounded to a shorter
    float format on the way in (left factor's last axis against the right factor's first, no batch axis) is `product` of the
    unrounded factors at the ideal instance, where rounding is the identity.
  * `dotGeneral_eq`: the host's `dot_general` with the same dimension numbers is `product`.
  * `product_congr`, `product_square_congr`: two products (the second: of the left factors squared) agree at two indices
    when the rows of the left factors and the columns of the right factors they read agree — the step that turns "the block a
    grid point computes from a row block" into "the same rows of the whole product".

  Only regrouping of a finite sum is used; no finiteness of the entries is needed.
-/
import Idealize.ShloMosaic.Lib.ValueIdx
import Idealize.ShloMosaic.Lib.Pipeline.Value
import Idealize.ShloMosaic.PureOps.Ideal.Laws
import proofs.«174884_j82179904242305_1_alg».proof.Proof.LibRowMax

noncomputable section

namespace Cert.LibProduct

open Idealize.ShloMosaic Idealize.ShloMosaic.ValueIdx
variable {a k b : ℕ}

/-- The product of an `[a, k]` matrix and a `[k, b]` matrix over the extended reals. -/
def product (x : (⟨2, ![a, k]⟩ : Shape).Idx → EReal) (w : (⟨2, ![k, b]⟩ : Shape).Idx → EReal) :
    (⟨2, ![a, b]⟩ : Shape).Idx → EReal :=
  fun i => ∑ e : Fin k, x (ix2 (i 0) e) * w (ix2 e (i 1))

theorem product_apply (x : (⟨2, ![a, k]⟩ : Shape).Idx → EReal) (w : (⟨2, ![k, b]⟩ : Shape).Idx → EReal) (i : Fin a) (j : Fin b) :
    product x w (ix2 i j) = ∑ e : Fin k, x (ix2 i e) * w (ix2 e j) := rfl

/-- Every entry multiplied by itself. -/
def square {s : Shape} (h : s.Idx → EReal) : s.Idx → EReal := fun i => h i * h i

/-- The matrix unit's product of two factors rounded to a shorter format, into a zero accumulator, is the product. -/
theorem matmul_rounded_eq {φ₁ φ₂ : FTy} (wf : DotDims.WF ⟨2, ![a, k]⟩ ⟨2, ![k, b]⟩ ⟨2, ![a, b]⟩ [1] [0] [0] [1] [] [])
    (prec : Option ContractPrecision) (x : FVec Ideal ⟨2, ![a, k]⟩ .f32) (w : FVec Ideal ⟨2, ![k, b]⟩ .f32)
    (h₁ : φ₁.bits < FTy.f32.bits) (h₂ : φ₂.bits < FTy.f32.bits) :
    FloatOps.matmul (Cert.LibRowMax.plainDims a k b wf) prec (truncf φ₁ x h₁) (truncf φ₂ w h₂)
        (constant ⟨2, ![a, b]⟩ .f32 0x00000000#32)
      = product x w := by
  funext j
  obtain ⟨p, q, rfl⟩ : ∃ (p : Fin a) (q : Fin b), j = ix2 p q := ⟨j 0, j 1, eq_ix2 j⟩
  exact Cert.LibRowMax.matmul_plain_apply wf prec (truncf φ₁ x h₁) (truncf φ₂ w h₂) p q

/-- The host's product of two factors is the product. -/
theorem dotGeneral_eq (wf : DotDims.WF ⟨2, ![a, k]⟩ ⟨2, ![k, b]⟩ ⟨2, ![a, b]⟩ [1] [0] [0] [1] [] [])
    (prec : Option ContractPrecision) (sched : HostSchedule) (x : FVec Ideal ⟨2, ![a, k]⟩ .f32) (w : FVec Ideal ⟨2, ![k, b]⟩ .f32) :
    FloatOps.dotGeneral (Cert.LibRowMax.plainDims a k b wf) prec sched x w = product x w := by
  funext j
  obtain ⟨p, q, rfl⟩ : ∃ (p : Fin a) (q : Fin b), j = ix2 p q := ⟨j 0, j 1, eq_ix2 j⟩
  exact Cert.LibRowMax.dotGeneral_plain_apply wf prec sched x w p q

/-! ## Two products agree at two indices when the rows and the columns they read agree -/

theorem product_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product x w j = product X W i :=
  Finset.sum_congr rfl fun e _ => by rw [hx e, hw e]

theorem product_square_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product (square x) w j = product (square X) W i :=
  Finset.sum_congr rfl fun e _ => by
    show x (ix2 (j 0) e) * x (ix2 (j 0) e) * w (ix2 e (j 1)) = X (ix2 (i 0) e) * X (ix2 (i 0) e) * W (ix2 e (i 1))
    rw [hx e, hw e]

end Cert.LibProduct

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibGin.lean ====
/-
  One layer of a sum-aggregating graph network, and its scoring head, as functions on the extended reals, for any extents.

  * `elu y` is `y` where `y > 0` and `exp y - 1` elsewhere; `hidden x g Wa ba` is the clamped affine map
    `max ((x + g) · Wa + ba) 0`, entry `(p, e)` being `max (Σ_j (x (p, j) + g (p, j)) · Wa (j, e) + ba e) 0`;
    `layer x g Wa ba Wb bb` is `elu (hidden … · Wb + bb)`; `score h lw lb` is the logistic function of `h · lw + lb`,
    kept as a column.
  * The vector unit's spelling of each (products of factors rounded on the way in, into a zero accumulator; a bias row
    broadcast down the rows; `exp y - 1` selected against `y`; a lane sum of the products with a weight row) and the host's
    spelling (plain products; a bias vector placed as a row and broadcast; `1 · expm1` of the clamped-above argument selected
    against `y`; `1 / (1 + exp (-z))`) are these functions: `vector_*_eq`, `host_*_eq`.
  * A layer's row `p` depends only on row `p` of `x` and of `g`: `layer_congr`, `score_congr`.
  Only `1 · y = y` and the definition of the logistic function are used; nothing needs finiteness.
-/
import proofs.«174884_j82179904242305_1_alg».proof.Proof.LibRowMax
import proofs.«174884_j82179904242305_1_alg».proof.Proof.LibProduct
import proofs.«174884_j82179904242305_1_alg».proof.Proof.LibColumn
import Idealize.ShloMosaic.Lib.ValueLayout
import Idealize.ShloMosaic.Lib.Pipeline.Value
import Idealize.ShloMosaic.PureOps.Ideal.Laws

noncomputable section

namespace Cert.LibGin

open Idealize.ShloMosaic Idealize.ShloMosaic.ValueIdx Cert.LibRowMax Cert.LibProduct

variable {a k h b : ℕ}

/-- The zero word and the word of one, as the extended reals they denote. -/
abbrev zw : EReal := Ideal.ofBits .f32 0x00000000#32
abbrev ow : EReal := Ideal.ofBits .f32 0x3F800000#32

/-- The word `0x3F800000` denotes one. -/
theorem one_word : Ideal.ofBits .f32 0x3F800000#32 = 1 := by
  simp [Ideal.ofBits, Ideal.ieee, -EReal.coe_mul]; norm_num

/-- `y` where `y > 0`, `exp y - 1` elsewhere. -/
def elu (y : EReal) : EReal := Scalar.select (Ideal.cmp .ogt y zw) y (Ideal.exp y - ow)

/-- The host's spelling: `1 · (exp y' - 1)` with `y'` the argument clamped above at zero, selected against `y`. -/
theorem elu_host (y : EReal) :
    Scalar.select (Ideal.cmp .ogt y zw) y (ow * (Ideal.exp (Scalar.select (Ideal.cmp .ogt y zw) zw y) - 1)) = elu y := by
  unfold elu
  rcases BitVec.eq_zero_or_eq_one (Ideal.cmp .ogt y zw) with hc | hc
  · rw [hc, select_zero, select_zero, select_zero, show ow = 1 from one_word, one_mul]
  · rw [hc, select_one, select_one]

/-- `max ((x + g) · Wa + ba) 0`. -/
def hidden (x g : (⟨2, ![a, k]⟩ : Shape).Idx → EReal) (Wa : (⟨2, ![k, h]⟩ : Shape).Idx → EReal) (ba : Fin h → EReal) :
    (⟨2, ![a, h]⟩ : Shape).Idx → EReal :=
  fun i => max (product (fun j => x j + g j) Wa i + ba (i 1)) zw

/-- `elu (hidden · Wb + bb)`. -/
def layer (x g : (⟨2, ![a, k]⟩ : Shape).Idx → EReal) (Wa : (⟨2, ![k, h]⟩ : Shape).Idx → EReal) (ba : Fin h → EReal)
    (Wb : (⟨2, ![h, b]⟩ : Shape).Idx → EReal) (bb : Fin b → EReal) : (⟨2, ![a, b]⟩ : Shape).Idx → EReal :=
  fun i => elu (product (hidden x g Wa ba) Wb i + bb (i 1))

/-- The logistic function of `h · lw + lb`, as a column. -/
def score (y : (⟨2, ![a, k]⟩ : Shape).Idx → EReal) (lw : Fin k → EReal) (lb : EReal) : (⟨2, ![a, 1]⟩ : Shape).Idx → EReal :=
  fun i => Ideal.logistic (∑ e : Fin k, y (ix2 (i 0) e) * lw e + lb)

/-! ## Rows are computed independently -/

theorem hidden_congr {a' : ℕ} (x g : (⟨2, ![a, k]⟩ : Shape).Idx → EReal) (X G : (⟨2, ![a', k]⟩ : Shape).Idx → EReal)
    (Wa : (⟨2, ![k, h]⟩ : Shape).Idx → EReal) (ba : Fin h → EReal) (p : Fin a) (r : Fin a') (e : Fin h)
    (hx : ∀ j : Fin k, x (ix2 p j) = X (ix2 r j)) (hg : ∀ j : Fin k, g (ix2 p j) = G (ix2 r j)) :
    hidden x g Wa ba (ix2 p e) = hidden X G Wa ba (ix2 r e) := by
  show max ((∑ j : Fin k, (x (ix2 p j) + g (ix2 p j)) * Wa (ix2 j e)) + ba e) zw
      = max ((∑ j : Fin k, (X (ix2 r j) + G (ix2 r j)) * Wa (ix2 j e)) + ba e) zw
  rw [Finset.sum_congr rfl fun j _ => by rw [hx j, hg j]]

theorem layer_congr {a' : ℕ} (x g : (⟨2, ![a, k]⟩ : Shape).Idx → EReal) (X G : (⟨2, ![a', k]⟩ : Shape).Idx → EReal)
    (Wa : (⟨2, ![k, h]⟩ : Shape).Idx → EReal) (ba : Fin h → EReal) (Wb : (⟨2, ![h, b]⟩ : Shape).Idx → EReal) (bb : Fin b → EReal)
    (p : Fin a) (r : Fin a') (q : Fin b)
    (hx : ∀ j : Fin k, x (ix2 p j) = X (ix2 r j)) (hg : ∀ j : Fin k, g (ix2 p j) = G (ix2 r j)) :
    layer x g Wa ba Wb bb (ix2 p q) = layer X G Wa ba Wb bb (ix2 r q) := by
  show elu ((∑ e : Fin h, hidden x g Wa ba (ix2 p e) * Wb (ix2 e q)) + bb q)
      = elu ((∑ e : Fin h, hidden X G Wa ba (ix2 r e) * Wb (ix2 e q)) + bb q)
  rw [Finset.sum_congr rfl fun e _ => by rw [hidden_congr x g X G Wa ba p r e hx hg]]

theorem score_congr {a' : ℕ} (y : (⟨2, ![a, k]⟩ : Shape).Idx → EReal) (Y : (⟨2, ![a', k]⟩ : Shape).Idx → EReal)
    (lw : Fin k → EReal) (lb : EReal) (p : Fin a) (r : Fin a') (u : Fin 1)
    (hy : ∀ e : Fin k, y (ix2 p e) = Y (ix2 r e)) :
    score y lw lb (ix2 p u) = score Y lw lb (ix2 r u) := by
  show Ideal.logistic ((∑ e : Fin k, y (ix2 p e) * lw e) + lb) = Ideal.logistic ((∑ e : Fin k, Y (ix2 r e) * lw e) + lb)
  rw [Finset.sum_congr rfl fun e _ => by rw [hy e]]

/-! ## The vector unit's spelling -/

theorem vector_hidden_eq (D : DotDims ⟨2, ![a, k]⟩ ⟨2, ![k, h]⟩ ⟨2, ![a, h]⟩)
    (wf : DotDims.WF ⟨2, ![a, k]⟩ ⟨2, ![k, h]⟩ ⟨2, ![a, h]⟩ [1] [0] [0] [1] [] []) (hD : D = plainDims a k h wf)
    (x g : FVec Ideal ⟨2, ![a, k]⟩ .f32) (Wa : FVec Ideal ⟨2, ![k, h]⟩ .f32) (βa : FVec Ideal ⟨2, ![1, h]⟩ .f32)
    (hbc : (⟨2, ![1, h]⟩ : Shape).Broadcasts ⟨2, ![a, h]⟩)
    (h₁ : FTy.bf16.bits < FTy.f32.bits) (h₂ : FTy.bf16.bits < FTy.f32.bits) :
    maximumf (addf (matmul D none (truncf .bf16 (addf x g) h₁) (truncf .bf16 Wa h₂) (constant ⟨2, ![a, h]⟩ .f32 0x00000000#32))
        (broadcastTo ⟨2, ![a, h]⟩ βa hbc))
      (broadcast ⟨2, ![a, h]⟩ (Scalar.ofBits (F := Ideal) .f32 0x00000000#32))
    = hidden x g Wa (fun e => βa (ix2 (0 : Fin 1) e)) := by
  subst hD
  funext i
  obtain ⟨p, e, rfl⟩ : ∃ (p : Fin a) (e : Fin h), i = ix2 p e := ⟨i 0, i 1, eq_ix2 i⟩
  show max (FloatOps.matmul (plainDims a k h wf) none (truncf .bf16 (addf x g) h₁) (truncf .bf16 Wa h₂)
        (constant ⟨2, ![a, h]⟩ .f32 0x00000000#32) (ix2 p e) + broadcastTo ⟨2, ![a, h]⟩ βa hbc (ix2 p e)) zw = _
  rw [matmul_rounded_eq wf none (addf x g) Wa h₁ h₂, broadcastTo_1b_ab_apply βa hbc p e]
  rfl

theorem vector_layer_eq (D₁ : DotDims ⟨2, ![a, k]⟩ ⟨2, ![k, h]⟩ ⟨2, ![a, h]⟩)
    (wf₁ : DotDims.WF ⟨2, ![a, k]⟩ ⟨2, ![k, h]⟩ ⟨2, ![a, h]⟩ [1] [0] [0] [1] [] []) (hD₁ : D₁ = plainDims a k h wf₁)
    (D₂ : DotDims ⟨2, ![a, h]⟩ ⟨2, ![h, b]⟩ ⟨2, ![a, b]⟩)
    (wf₂ : DotDims.WF ⟨2, ![a, h]⟩ ⟨2, ![h, b]⟩ ⟨2, ![a, b]⟩ [1] [0] [0] [1] [] []) (hD₂ : D₂ = plainDims a h b wf₂)
    (x g : FVec Ideal ⟨2, ![a, k]⟩ .f32) (Wa : FVec Ideal ⟨2, ![k, h]⟩ .f32) (βa : FVec Ideal ⟨2, ![1, h]⟩ .f32)
    (Wb : FVec Ideal ⟨2, ![h, b]⟩ .f32) (βb : FVec Ideal ⟨2, ![1, b]⟩ .f32)
    (hbc₁ : (⟨2, ![1, h]⟩ : Shape).Broadcasts ⟨2, ![a, h]⟩) (hbc₂ : (⟨2, ![1, b]⟩ : Shape).Broadcasts ⟨2, ![a, b]⟩)
    (h₁ h₂ h₃ h₄ : FTy.bf16.bits < FTy.f32.bits)
    (Y : FVec Ideal ⟨2, ![a, b]⟩ .f32)
    (hY : Y = addf (matmul D₂ none
        (truncf .bf16 (maximumf (addf (matmul D₁ none (truncf .bf16 (addf x g) h₁) (truncf .bf16 Wa h₂)
            (constant ⟨2, ![a, h]⟩ .f32 0x00000000#32)) (broadcastTo ⟨2, ![a, h]⟩ βa hbc₁))
          (broadcast ⟨2, ![a, h]⟩ (Scalar.ofBits (F := Ideal) .f32 0x00000000#32))) h₃)
        (truncf .bf16 Wb h₄) (constant ⟨2, ![a, b]⟩ .f32 0x00000000#32)) (broadcastTo ⟨2, ![a, b]⟩ βb hbc₂)) :
    select (cmpf .ogt Y (broadcast ⟨2, ![a, b]⟩ (Scalar.ofBits (F := Ideal) .f32 0x00000000#32))) Y
        (subf (exp Y) (broadcast ⟨2, ![a, b]⟩ (Scalar.ofBits (F := Ideal) .f32 0x3F800000#32)))
    = layer x g Wa (fun e => βa (ix2 (0 : Fin 1) e)) Wb (fun q => βb (ix2 (0 : Fin 1) q)) := by
  subst hY
  rw [vector_hidden_eq D₁ wf₁ hD₁ x g Wa βa hbc₁ h₁ h₂]
  subst hD₂
  funext i
  obtain ⟨p, q, rfl⟩ : ∃ (p : Fin a) (q : Fin b), i = ix2 p q := ⟨i 0, i 1, eq_ix2 i⟩
  show elu (FloatOps.matmul (plainDims a h b wf₂) none (truncf .bf16 (hidden x g Wa fun e => βa (ix2 (0 : Fin 1) e)) h₃)
        (truncf .bf16 Wb h₄) (constant ⟨2, ![a, b]⟩ .f32 0x00000000#32) (ix2 p q) + broadcastTo ⟨2, ![a, b]⟩ βb hbc₂ (ix2 p q)) = _
  rw [matmul_rounded_eq wf₂ none (hidden x g Wa fun e => βa (ix2 (0 : Fin 1) e)) Wb h₃ h₄, broadcastTo_1b_ab_apply βb hbc₂ p q]
  rfl

/-- The vector unit's scoring head: the lane sum of the products with a weight row, kept as a column, plus a `[1, 1]`
    bias broadcast down the rows, through the logistic function. -/
theorem vector_score_eq (y : FVec Ideal ⟨2, ![a, k]⟩ .f32) (lw : FVec Ideal ⟨2, ![1, k]⟩ .f32) (lb : FVec Ideal ⟨2, ![1, 1]⟩ .f32)
    (hbc : (⟨2, ![1, k]⟩ : Shape).Broadcasts ⟨2, ![a, k]⟩) (hred : (⟨2, ![a, k]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hbc' : (⟨2, ![1, 1]⟩ : Shape).Broadcasts ⟨2, ![a, 1]⟩) :
    logistic (addf (shapeCast ⟨2, ![a, 1]⟩ (multiReduction .add [1] ⟨1, ![a]⟩ (mulf y (broadcastTo ⟨2, ![a, k]⟩ lw hbc))
        0x00000000#32 hred hφ hacc) hc) (broadcastTo ⟨2, ![a, 1]⟩ lb hbc'))
    = score y (fun e => lw (ix2 (0 : Fin 1) e)) (lb (ix2 (0 : Fin 1) (0 : Fin 1))) := by
  funext i
  obtain ⟨p, u, rfl⟩ : ∃ (p : Fin a) (u : Fin 1), i = ix2 p u := ⟨i 0, i 1, eq_ix2 i⟩
  show Ideal.logistic (shapeCast ⟨2, ![a, 1]⟩ (multiReduction .add [1] ⟨1, ![a]⟩ (mulf y (broadcastTo ⟨2, ![a, k]⟩ lw hbc))
        0x00000000#32 hred hφ hacc) hc (ix2 p u) + broadcastTo ⟨2, ![a, 1]⟩ lb hbc' (ix2 p u)) = _
  rw [Cert.LibColumn.shapeCast_a_a1_apply _ hc p u, Cert.LibColumn.sum_last_apply _ hred hφ hacc p,
    broadcastTo_1b_ab_apply lb hbc' p u]
  have hu : u = (0 : Fin 1) := Subsingleton.elim _ _
  subst hu
  show Ideal.logistic ((∑ d : Fin k, y (ix2 p d) * broadcastTo ⟨2, ![a, k]⟩ lw hbc (ix2 p d)) + _) = _
  rw [Finset.sum_congr rfl fun d _ => by rw [broadcastTo_1b_ab_apply lw hbc p d]]
  rfl

/-! ## The host's spelling -/

theorem host_hidden_eq (D : DotDims ⟨2, ![a, k]⟩ ⟨2, ![k, h]⟩ ⟨2, ![a, h]⟩)
    (wf : DotDims.WF ⟨2, ![a, k]⟩ ⟨2, ![k, h]⟩ ⟨2, ![a, h]⟩ [1] [0] [0] [1] [] []) (hD : D = plainDims a k h wf)
    (x g : FVec Ideal ⟨2, ![a, k]⟩ .f32) (Wa : FVec Ideal ⟨2, ![k, h]⟩ .f32) (βa : FVec Ideal ⟨1, ![h]⟩ .f32)
    (h1 : (⟨1, ![h]⟩ : Shape).BroadcastsInDim ⟨2, ![1, h]⟩ ![1])
    (h2 : (⟨2, ![1, h]⟩ : Shape).BroadcastsInDim ⟨2, ![a, h]⟩ ![0, 1])
    (h0 : (⟨0, ![]⟩ : Shape).BroadcastsInDim ⟨2, ![a, h]⟩ ![]) :
    maximumf (addf (Host.dotGeneral D none (addf x g) Wa)
        (broadcastInDim ⟨2, ![a, h]⟩ ![0, 1] h2 (broadcastInDim ⟨2, ![1, h]⟩ ![1] h1 βa)))
      (broadcastInDim ⟨2, ![a, h]⟩ ![] h0 (constant (F := Ideal) ⟨0, ![]⟩ .f32 0x00000000#32))
    = hidden x g Wa (fun e => βa (ix1 e)) := by
  subst hD
  funext i
  obtain ⟨p, e, rfl⟩ : ∃ (p : Fin a) (e : Fin h), i = ix2 p e := ⟨i 0, i 1, eq_ix2 i⟩
  have hz : broadcastInDim ⟨2, ![a, h]⟩ ![] h0 (constant (F := Ideal) ⟨0, ![]⟩ .f32 0x00000000#32) (ix2 p e) = zw :=
    broadcastInDim_apply _ h0 _ (ix2 p e) ix0 (fun ax => ax.elim0)
  show max (FloatOps.dotGeneral (plainDims a k h wf) none _ (addf x g) Wa (ix2 p e)
      + broadcastInDim ⟨2, ![a, h]⟩ ![0, 1] h2 (broadcastInDim ⟨2, ![1, h]⟩ ![1] h1 βa) (ix2 p e))
      (broadcastInDim ⟨2, ![a, h]⟩ ![] h0 (constant (F := Ideal) ⟨0, ![]⟩ .f32 0x00000000#32) (ix2 p e)) = _
  rw [hz, dotGeneral_plain_apply wf none _ (addf x g) Wa p e, broadcastInDim_1b_ab_apply _ h2 p e,
    broadcastInDim_b_1b_apply βa h1 (0 : Fin 1) e]
  rfl

end Cert.LibGin

end
-- ==== Proof.KernelLayer0.lean ====
/-
  What launch 0 of the layer kernel leaves in its result array, as ONE function of the arrays it finds at its entry:
  the layer `elu (max ((x + g) · Wa + ba) 0 · Wb + bb)` of the whole node-feature array `x`, the whole neighbour-sum
  array `g` and the weights. Each of the 25 grid points computes the layer on a block of 4000 rows, and a layer's row
  depends only on that row of `x` and `g`; the 25 blocks tile the 100000 rows.
-/
import proofs.«174884_j82179904242305_1_alg».proof.Proof.Gen.KernelIdeal.Frame
import proofs.«174884_j82179904242305_1_alg».proof.Proof.LibGin
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.LibGin

variable (V : (c : Dev nD) → (b : Ref sig .tc) → Buf (Elt Ideal) ((c : Thread nD τ).loc b))

theorem hz0 : (![0, 0] : Fin 2 → Nat) = fun _ => 0 := funext fun a => by fin_cases a <;> rfl

/-- The layer of the arrays launch 0 finds: the result array's contents after it. -/
def G0 (c : Dev nD) : S100000x128.Idx → Elt Ideal .f32 :=
  layer (V c main_arg0 : S100000x128.Idx → Elt Ideal .f32) (V c main_v13 : S100000x128.Idx → Elt Ideal .f32)
    (V c main_arg2 : S128x128.Idx → Elt Ideal .f32) (fun e => (V c main_v14 : S1x128.Idx → Elt Ideal .f32) (ix2 (0 : Fin 1) e))
    (V c main_arg4 : S128x128.Idx → Elt Ideal .f32) (fun q => (V c main_v15 : S1x128.Idx → Elt Ideal .f32) (ix2 (0 : Fin 1) q))

/-- The body's one stored value is the layer of its loaded blocks. -/
theorem pay0_eq (x0 x1 : Vec Ideal S4000x128 .f32) (x2 : Vec Ideal S128x128 .f32) (x3 : Vec Ideal S1x128 .f32)
    (x4 : Vec Ideal S128x128 .f32) (x5 : Vec Ideal S1x128 .f32) :
    k0_pay1 x0 x1 x2 x3 x4 x5
      = layer x0 x1 x2 (fun e => x3 (ix2 (0 : Fin 1) e)) x4 (fun q => x5 (ix2 (0 : Fin 1) q)) := by
  unfold k0_pay1
  simp only [shapeCast_self]
  exact vector_layer_eq dot_S4000x128_S128x128_S4000x128_1_0_0_1_n_n Facts₀.dot_S4000x128_S128x128_S4000x128_1_0_0_1_n_n_wf rfl
    dot_S4000x128_S128x128_S4000x128_1_0_0_1_n_n Facts₀.dot_S4000x128_S128x128_S4000x128_1_0_0_1_n_n_wf rfl
    x0 x1 x2 x3 x4 x5 _ _ _ _ _ _ _ rfl

/-- The printed index maps over the grid: the row-blocked windows sit at block row `t`, the weight windows at the origin. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of block `t` is row `4000 t + p` of the array. -/
def row0 (t : Fin cfg0.N) (p : Fin 4000) : Fin 100000 :=
  ⟨t.val * 4000 + p.val, by have h : t.val < 25 := lt_of_lt_of_eq t.isLt N_0
                            have := p.isLt; omega⟩

/-- The two row-blocked inputs, read at a row of a block. -/
theorem blk0_0 (c : Dev nD) (t : Fin cfg0.N) (p : Fin 4000) (j : Fin 128) :
    (iblk0 V c 0 t : S4000x128.Idx → Elt Ideal .f32) (ix2 p j) = (V c main_arg0 : S100000x128.Idx → Elt Ideal .f32) (ix2 (row0 t p) j) := by
  obtain ⟨e0, e1, -⟩ := idx0 t
  show (V c main_arg0 : S100000x128.Idx → Elt Ideal .f32) (((cfg0.win 0).blk t).view.emb (ix2 p j)) = _
  refine congrArg (V c main_arg0 : S100000x128.Idx → Elt Ideal .f32) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 128 + 1 * j.val = j.val; rw [e1]; omega

theorem blk0_1 (c : Dev nD) (t : Fin cfg0.N) (p : Fin 4000) (j : Fin 128) :
    (iblk0 V c 1 t : S4000x128.Idx → Elt Ideal .f32) (ix2 p j) = (V c main_v13 : S100000x128.Idx → Elt Ideal .f32) (ix2 (row0 t p) j) := by
  obtain ⟨-, -, e0, e1, -⟩ := idx0 t
  show (V c main_v13 : S100000x128.Idx → Elt Ideal .f32) (((cfg0.win 1).blk t).view.emb (ix2 p j)) = _
  refine congrArg (V c main_v13 : S100000x128.Idx → Elt Ideal .f32) (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 128 + 1 * j.val = j.val; rw [e1]; omega

/-- The weight and bias windows' one block is the whole array. -/
theorem blk0_2 (c : Dev nD) (t : Fin cfg0.N) :
    (iblk0 V c 2 t : S128x128.Idx → Elt Ideal .f32) = (V c main_arg2 : S128x128.Idx → Elt Ideal .f32) := by
  obtain ⟨-, -, -, -, e0, e1, -⟩ := idx0 t
  funext y
  show (V c main_arg2 : S128x128.Idx → Elt Ideal .f32) (((cfg0.win 2).blk t).view.emb y) = _
  refine congrArg (V c main_arg2 : S128x128.Idx → Elt Ideal .f32) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk0_3 (c : Dev nD) (t : Fin cfg0.N) :
    (iblk0 V c 3 t : S1x128.Idx → Elt Ideal .f32) = (V c main_v14 : S1x128.Idx → Elt Ideal .f32) := by
  obtain ⟨-, -, -, -, -, -, e0, e1, -⟩ := idx0 t
  funext y
  show (V c main_v14 : S1x128.Idx → Elt Ideal .f32) (((cfg0.win 3).blk t).view.emb y) = _
  refine congrArg (V c main_v14 : S1x128.Idx → Elt Ideal .f32) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk0_4 (c : Dev nD) (t : Fin cfg0.N) :
    (iblk0 V c 4 t : S128x128.Idx → Elt Ideal .f32) = (V c main_arg4 : S128x128.Idx → Elt Ideal .f32) := by
  obtain ⟨-, -, -, -, -, -, -, -, e0, e1, -⟩ := idx0 t
  funext y
  show (V c main_arg4 : S128x128.Idx → Elt Ideal .f32) (((cfg0.win 4).blk t).view.emb y) = _
  refine congrArg (V c main_arg4 : S128x128.Idx → Elt Ideal .f32) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk0_5 (c : Dev nD) (t : Fin cfg0.N) :
    (iblk0 V c 5 t : S1x128.Idx → Elt Ideal .f32) = (V c main_v15 : S1x128.Idx → Elt Ideal .f32) := by
  obtain ⟨-, -, -, -, -, -, -, -, -, -, e0, e1, -⟩ := idx0 t
  funext y
  show (V c main_v15 : S1x128.Idx → Elt Ideal .f32) (((cfg0.win 5).blk t).view.emb y) = _
  refine congrArg (V c main_v15 : S1x128.Idx → Elt Ideal .f32) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- What grid point `t` writes back is block `t` of the layer of the whole arrays. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz0]
  simp only [View.ld_unit_zero (S := S4000x128) hz0, View.ld_unit_zero (S := S128x128) hz0, View.ld_unit_zero (S := S1x128) hz0]
  rw [pay0_eq, blk0_2, blk0_3, blk0_4, blk0_5]
  obtain ⟨-, -, -, -, -, -, -, -, -, -, -, -, e0, e1⟩ := idx0 t
  funext y
  obtain ⟨p, q, rfl⟩ : ∃ (p : Fin 4000) (q : Fin 128), y = ix2 p q := ⟨y 0, y 1, eq_ix2 y⟩
  have hemb : ((cfg0.win 6).blk t).view.emb (ix2 p q) = (ix2 (row0 t p) q : S100000x128.Idx) := by
    funext a; apply Fin.ext
    match a with
    | ⟨0, _⟩ => show win0_6.index t (0 : Fin 2) * 4000 + 1 * p.val = t.val * 4000 + p.val; rw [e0]; omega
    | ⟨1, _⟩ => show win0_6.index t (1 : Fin 2) * 128 + 1 * q.val = q.val; rw [e1]; omega
  show layer _ _ _ _ _ _ (ix2 p q) = G0 V c (((cfg0.win 6).blk t).view.emb (ix2 p q))
  rw [hemb]
  exact layer_congr _ _ _ _ _ _ _ _ p (row0 t p) q (fun j => blk0_0 V c t p j) (fun j => blk0_1 V c t p j)

/-- An index of the array lies in point `t`'s block iff each coordinate lies in the block's range. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v16).slice (win0_6.rect t)).set ↔ _
  rw [View.set_slice_whole, Rect.mem_set_unit]
  exact Iff.rfl

/-- Every row lies in the block of the point `row / 4000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, -, -, -, -, -, -, e0, e1⟩ := idx0 t
  have ht : t.val = (i 0).val / 4000 := rfl
  refine ⟨t, flush0_6 t, ?_⟩
  rw [mem_blk0]
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 128 ≤ (i 1).val ∧ (i 1).val < win0_6.index t (1 : Fin 2) * 128 + 128; rw [e1]; omega

/-- The result array after launch 0: the layer of the arrays found at its entry. -/
theorem final0 (c : Dev nD) : (dat0 V c).arrAt 6 cfg0.N = G0 V c :=
  (dat0 V c).arrAt_eq_of_cover 6 (G0 V c) (fun t _ => flushed0 V c t) (cover0)

end Cert.KernelIdeal.Hand

end
-- ==== Proof.KernelLayer1.lean ====
/-
  What launch 1 of the layer kernel leaves in its result array, as ONE function of the arrays it finds at its entry:
  the layer `elu (max ((x + g) · Wa + ba) 0 · Wb + bb)` of the whole node-feature array `x`, the whole neighbour-sum
  array `g` and the weights. Each of the 25 grid points computes the layer on a block of 4000 rows, and a layer's row
  depends only on that row of `x` and `g`; the 25 blocks tile the 100000 rows.
-/
import proofs.«174884_j82179904242305_1_alg».proof.Proof.Gen.KernelIdeal.Frame
import proofs.«174884_j82179904242305_1_alg».proof.Proof.LibGin
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.LibGin

variable (V : (c : Dev nD) → (b : Ref sig .tc) → Buf (Elt Ideal) ((c : Thread nD τ).loc b))

theorem hz1 : (![0, 0] : Fin 2 → Nat) = fun _ => 0 := funext fun a => by fin_cases a <;> rfl

/-- The layer of the arrays launch 1 finds: the result array's contents after it. -/
def G1 (c : Dev nD) : S100000x128.Idx → Elt Ideal .f32 :=
  layer (V c main_v16 : S100000x128.Idx → Elt Ideal .f32) (V c main_v26 : S100000x128.Idx → Elt Ideal .f32)
    (V c main_arg6 : S128x128.Idx → Elt Ideal .f32) (fun e => (V c main_v27 : S1x128.Idx → Elt Ideal .f32) (ix2 (0 : Fin 1) e))
    (V c main_arg8 : S128x128.Idx → Elt Ideal .f32) (fun q => (V c main_v28 : S1x128.Idx → Elt Ideal .f32) (ix2 (0 : Fin 1) q))

/-- The body's one stored value is the layer of its loaded blocks. -/
theorem pay1_eq (x0 x1 : Vec Ideal S4000x128 .f32) (x2 : Vec Ideal S128x128 .f32) (x3 : Vec Ideal S1x128 .f32)
    (x4 : Vec Ideal S128x128 .f32) (x5 : Vec Ideal S1x128 .f32) :
    k1_pay1 x0 x1 x2 x3 x4 x5
      = layer x0 x1 x2 (fun e => x3 (ix2 (0 : Fin 1) e)) x4 (fun q => x5 (ix2 (0 : Fin 1) q)) := by
  unfold k1_pay1
  simp only [shapeCast_self]
  exact vector_layer_eq dot_S4000x128_S128x128_S4000x128_1_0_0_1_n_n Facts₀.dot_S4000x128_S128x128_S4000x128_1_0_0_1_n_n_wf rfl
    dot_S4000x128_S128x128_S4000x128_1_0_0_1_n_n Facts₀.dot_S4000x128_S128x128_S4000x128_1_0_0_1_n_n_wf rfl
    x0 x1 x2 x3 x4 x5 _ _ _ _ _ _ _ rfl

/-- The printed index maps over the grid: the row-blocked windows sit at block row `t`, the weight windows at the origin. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of block `t` is row `4000 t + p` of the array. -/
def row1 (t : Fin cfg1.N) (p : Fin 4000) : Fin 100000 :=
  ⟨t.val * 4000 + p.val, by have h : t.val < 25 := lt_of_lt_of_eq t.isLt N_1
                            have := p.isLt; omega⟩

/-- The two row-blocked inputs, read at a row of a block. -/
theorem blk1_0 (c : Dev nD) (t : Fin cfg1.N) (p : Fin 4000) (j : Fin 128) :
    (iblk1 V c 0 t : S4000x128.Idx → Elt Ideal .f32) (ix2 p j) = (V c main_v16 : S100000x128.Idx → Elt Ideal .f32) (ix2 (row1 t p) j) := by
  obtain ⟨e0, e1, -⟩ := idx1 t
  show (V c main_v16 : S100000x128.Idx → Elt Ideal .f32) (((cfg1.win 0).blk t).view.emb (ix2 p j)) = _
  refine congrArg (V c main_v16 : S100000x128.Idx → Elt Ideal .f32) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 128 + 1 * j.val = j.val; rw [e1]; omega

theorem blk1_1 (c : Dev nD) (t : Fin cfg1.N) (p : Fin 4000) (j : Fin 128) :
    (iblk1 V c 1 t : S4000x128.Idx → Elt Ideal .f32) (ix2 p j) = (V c main_v26 : S100000x128.Idx → Elt Ideal .f32) (ix2 (row1 t p) j) := by
  obtain ⟨-, -, e0, e1, -⟩ := idx1 t
  show (V c main_v26 : S100000x128.Idx → Elt Ideal .f32) (((cfg1.win 1).blk t).view.emb (ix2 p j)) = _
  refine congrArg (V c main_v26 : S100000x128.Idx → Elt Ideal .f32) (funext fun a => Fin.ext ?_)
  match a with
  | ⟨0, _⟩ => show win1_1.index t (0 : Fin 2) * 4000 + 1 * p.val = t.val * 4000 + p.val; rw [e0]; omega
  | ⟨1, _⟩ => show win1_1.index t (1 : Fin 2) * 128 + 1 * j.val = j.val; rw [e1]; omega

/-- The weight and bias windows' one block is the whole array. -/
theorem blk1_2 (c : Dev nD) (t : Fin cfg1.N) :
    (iblk1 V c 2 t : S128x128.Idx → Elt Ideal .f32) = (V c main_arg6 : S128x128.Idx → Elt Ideal .f32) := by
  obtain ⟨-, -, -, -, e0, e1, -⟩ := idx1 t
  funext y
  show (V c main_arg6 : S128x128.Idx → Elt Ideal .f32) (((cfg1.win 2).blk t).view.emb y) = _
  refine congrArg (V c main_arg6 : S128x128.Idx → Elt Ideal .f32) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem blk1_3 (c : Dev nD) (t : Fin cfg1.N) :
    (iblk1 V c 3 t : S1x128.Idx → Elt Ideal .f32) = (V c main_v27 : S1x128.Idx → Elt Ideal .f32) := by
  obtain ⟨-, -, -, -, -, -, e0, e1, -⟩ := idx1 t
  funext y
  show (V c main_v27 : S1x128.Idx → Elt Ideal .f32) (((cfg1.win 3).blk t).view.emb y) = _
  refine congrArg (V c main_v27 : S1x128.Idx → Elt Ideal .f32) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem blk1_4 (c : Dev nD) (t : Fin cfg1.N) :
    (iblk1 V c 4 t : S128x128.Idx → Elt Ideal .f32) = (V c main_arg8 : S128x128.Idx → Elt Ideal .f32) := by
  obtain ⟨-, -, -, -, -, -, -, -, e0, e1, -⟩ := idx1 t
  funext y
  show (V c main_arg8 : S128x128.Idx → Elt Ideal .f32) (((cfg1.win 4).blk t).view.emb y) = _
  refine congrArg (V c main_arg8 : S128x128.Idx → Elt Ideal .f32) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem blk1_5 (c : Dev nD) (t : Fin cfg1.N) :
    (iblk1 V c 5 t : S1x128.Idx → Elt Ideal .f32) = (V c main_v28 : S1x128.Idx → Elt Ideal .f32) := by
  obtain ⟨-, -, -, -, -, -, -, -, -, -, e0, e1, -⟩ := idx1 t
  funext y
  show (V c main_v28 : S1x128.Idx → Elt Ideal .f32) (((cfg1.win 5).blk t).view.emb y) = _
  refine congrArg (V c main_v28 : S1x128.Idx → Elt Ideal .f32) (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- What grid point `t` writes back is block `t` of the layer of the whole arrays. -/
theorem flushed1 (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S4000x128) hz1, View.ld_unit_zero (S := S128x128) hz1, View.ld_unit_zero (S := S1x128) hz1]
  rw [pay1_eq, blk1_2, blk1_3, blk1_4, blk1_5]
  obtain ⟨-, -, -, -, -, -, -, -, -, -, -, -, e0, e1⟩ := idx1 t
  funext y
  obtain ⟨p, q, rfl⟩ : ∃ (p : Fin 4000) (q : Fin 128), y = ix2 p q := ⟨y 0, y 1, eq_ix2 y⟩
  have hemb : ((cfg1.win 6).blk t).view.emb (ix2 p q) = (ix2 (row1 t p) q : S100000x128.Idx) := by
    funext a; apply Fin.ext
    match a with
    | ⟨0, _⟩ => show win1_6.index t (0 : Fin 2) * 4000 + 1 * p.val = t.val * 4000 + p.val; rw [e0]; omega
    | ⟨1, _⟩ => show win1_6.index t (1 : Fin 2) * 128 + 1 * q.val = q.val; rw [e1]; omega
  show layer _ _ _ _ _ _ (ix2 p q) = G1 V c (((cfg1.win 6).blk t).view.emb (ix2 p q))
  rw [hemb]
  exact layer_congr _ _ _ _ _ _ _ _ p (row1 t p) q (fun j => blk1_0 V c t p j) (fun j => blk1_1 V c t p j)

/-- An index of the array lies in point `t`'s block iff each coordinate lies in the block's range. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v29).slice (win1_6.rect t)).set ↔ _
  rw [View.set_slice_whole, Rect.mem_set_unit]
  exact Iff.rfl

/-- Every row lies in the block of the point `row / 4000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨-, -, -, -, -, -, -, -, -, -, -, -, e0, e1⟩ := idx1 t
  have ht : t.val = (i 0).val / 4000 := rfl
  refine ⟨t, flush1_6 t, ?_⟩
  rw [mem_blk1]
  intro a
  match a with
  | ⟨0, _⟩ => show win1_6.index t (0 : Fin 2) * 4000 ≤ (i 0).val ∧ (i 0).val < win1_6.index t (0 : Fin 2) * 4000 + 4000; rw [e0, ht]; omega
  | ⟨1, _⟩ => show win1_6.index t (1 : Fin 2) * 128 ≤ (i 1).val ∧ (i 1).val < win1_6.index t (1 : Fin 2) * 128 + 128; rw [e1]; omega

/-- The result array after launch 1: the layer of the arrays found at its entry. -/
theorem final1 (c : Dev nD) : (dat1 V c).arrAt 6 cfg1.N = G1 V c :=
  (dat1 V c).arrAt_eq_of_cover 6 (G1 V c) (fun t _ => flushed1 V c t) (cover1)

end Cert.KernelIdeal.Hand

end
-- ==== Proof.KernelFinal.lean ====
/-
  What the last launch (the layer with the scoring head) leaves in its result column, as ONE function of the arrays it
  finds at its entry: the logistic function of `h · lw + lb`, `h` the layer of the whole node-feature array, the
  whole neighbour-sum array and the weights. Each of the 25 grid points computes 4000 rows of the column; a row of the
  column depends only on that row of the two node arrays; the 25 blocks tile the 100000 rows.
-/
import proofs.«174884_j82179904242305_1_alg».proof.Proof.Gen.KernelIdeal.Frame
import proofs.«174884_j82179904242305_1_alg».proof.Proof.LibGin
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.LibGin

variable (V : (c : Dev nD) → (b : Ref sig .tc) → Buf (Elt Ideal) ((c : Thread nD τ).loc b))

theorem hz2 : (![0, 0] : Fin 2 → Nat) = fun _ => 0 := funext fun a => by fin_cases a <;> rfl

/-- The layer of the arrays the last launch finds. -/
def H2 (c : Dev nD) : S100000x128.Idx → Elt Ideal .f32 :=
  layer (V c main_v29 : S100000x128.Idx → Elt Ideal .f32) (V c main_v39 : S100000x128.Idx → Elt Ideal .f32)
    (V c main_arg10 : S128x128.Idx → Elt Ideal .f32) (fun e => (V c main_v40 : S1x128.Idx → Elt Ideal .f32) (ix2 (0 : Fin 1) e))
    (V c main_arg12 : S128x128.Idx → Elt Ideal .f32) (fun q => (V c main_v41 : S1x128.Idx → Elt Ideal .f32) (ix2 (0 : Fin 1) q))

/-- Its score column: the result array's contents after the launch. -/
def G2 (c : Dev nD) : S100000x1.Idx → Elt Ideal .f32 :=
  score (H2 V c) (fun e => (V c main_v43 : S1x128.Idx → Elt Ideal .f32) (ix2 (0 : Fin 1) e))
    ((V c main_v44 : S1x1.Idx → Elt Ideal .f32) (ix2 (0 : Fin 1) (0 : Fin 1)))

/-- The body's one stored value is the score column of the layer of its loaded blocks. -/
theorem pay2_eq (x0 x1 : Vec Ideal S4000x128 .f32) (x2 : Vec Ideal S128x128 .f32) (x3 : Vec Ideal S1x128 .f32)
    (x4 : Vec Ideal S128x128 .f32) (x5 x6 : Vec Ideal S1x128 .f32) (x7 : Vec Ideal S1x1 .f32) :
    k2_pay1 (k2_pay2 x0 x1 x2 x3 x4 x5 x6) (k2_pay3 x7)
      = score (layer x0 x1 x2 (fun e => x3 (ix2 (0 : Fin 1) e)) x4 (fun q => x5 (ix2 (0 : Fin 1) q)))
          (fun e => x6 (ix2 (0 : Fin 1) e)) (x7 (ix2 (0 : Fin 1) (0 : Fin 1))) := by
  unfold k2_pay1 k2_pay2 k2_pay3
  simp only [shapeCast_self]
  rw [vector_layer_eq dot_S4000x128_S128x128_S4000x128_1_0_0_1_n_n Facts₀.dot_S4000x128_S128x128_S4000x128_1_0_0_1_n_n_wf rfl
    dot_S4000x128_S128x128_S4000x128_1_0_0_1_n_n Facts₀.dot_S4000x128_S128x128_S4000x128_1_0_0_1_n_n_wf rfl
    x0 x1 x2 x3 x4 x5 _ _ _ _ _ _ _ rfl]
  exact vector_score_eq _ x6 x7 _ _ _ _ _ _

/-- The printed index maps over the grid: the row-blocked windows sit at block row `t`, the others at the origin. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 ∧ True :=
  (by decide +kernel : ∀ t : Fin grid2.N, _)

/-- Row `p` of block `t` is row `4000 t + p` of the array. -/
def row2 (t : Fin cfg2.N) (p : Fin 4000) : Fin 100000 :=
  ⟨t.val * 4000 + p.val, by have h : t.val < 25 := lt_of_lt_of_eq t.isLt N_2
                            have := p.isLt; omega⟩

/-- The two row-blocked inputs, read at a row of a block. -/
theorem blk2_0 (c : Dev nD) (t : Fin cfg2.N) (p : Fin 4000) (j : Fin 128) :
    (iblk2 V c 0 t : S4000x128.Idx → Elt Ideal .f32) (ix2 p j) = (V c main_v29 : S100000x128.Idx → Elt Ideal .f32) (ix2 (row2 t p) j) := by
  obtain ⟨e0, e1, -⟩ := idx2 t
  show (V c main_v29 : S100000x128.Idx → Elt Ideal .f32) (((cfg2.win 0).blk t).view.emb (ix2 p j)) = _
  refine congrArg (V c main_v29 : S100000x128.Idx → Elt Ideal .f32) (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 128 + 1 * j.val = j.val; rw [e1]; omega

theorem blk2_1 (c : Dev nD) (t : Fin cfg2.N) (p : Fin 4000) (j : Fin 128) :
    (iblk2 V c 1 t : S4000x128.Idx → Elt Ideal .f32) (ix2 p j) = (V c main_v39 : S100000x128.Idx → Elt Ideal .f32) (ix2 (row2 t p) j) := by
  obtain ⟨-, -, e0, e1, -⟩ := idx2 t
  show (V c main_v39 : S100000x128.Idx → Elt Ideal .f32) (((cfg2.win 1).blk t).view.emb (ix2 p j)) = _
  refine congrArg (V c main_v39 : S100000x128.Idx → Elt Ideal .f32) (funext fun a => Fin.ext ?_)
  match a with
  | ⟨0, _⟩ => show win2_1.index t (0 : Fin 2) * 4000 + 1 * p.val = t.val * 4000 + p.val; rw [e0]; omega
  | ⟨1, _⟩ => show win2_1.index t (1 : Fin 2) * 128 + 1 * j.val = j.val; rw [e1]; omega

/-- The weight, bias and head windows' one block is the whole array. -/
theorem blk2_2 (c : Dev nD) (t : Fin cfg2.N) :
    (iblk2 V c 2 t : S128x128.Idx → Elt Ideal .f32) = (V c main_arg10 : S128x128.Idx → Elt Ideal .f32) := by
  obtain ⟨-, -, -, -, e0, e1, -⟩ := idx2 t
  funext y
  show (V c main_arg10 : S128x128.Idx → Elt Ideal .f32) (((cfg2.win 2).blk t).view.emb y) = _
  refine congrArg (V c main_arg10 : S128x128.Idx → Elt Ideal .f32) (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem blk2_3 (c : Dev nD) (t : Fin cfg2.N) :
    (iblk2 V c 3 t : S1x128.Idx → Elt Ideal .f32) = (V c main_v40 : S1x128.Idx → Elt Ideal .f32) := by
  obtain ⟨-, -, -, -, -, -, e0, e1, -⟩ := idx2 t
  funext y
  show (V c main_v40 : S1x128.Idx → Elt Ideal .f32) (((cfg2.win 3).blk t).view.emb y) = _
  refine congrArg (V c main_v40 : S1x128.Idx → Elt Ideal .f32) (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

theorem blk2_4 (c : Dev nD) (t : Fin cfg2.N) :
    (iblk2 V c 4 t : S128x128.Idx → Elt Ideal .f32) = (V c main_arg12 : S128x128.Idx → Elt Ideal .f32) := by
  obtain ⟨-, -, -, -, -, -, -, -, e0, e1, -⟩ := idx2 t
  funext y
  show (V c main_arg12 : S128x128.Idx → Elt Ideal .f32) (((cfg2.win 4).blk t).view.emb y) = _
  refine congrArg (V c main_arg12 : S128x128.Idx → Elt Ideal .f32) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

theorem blk2_5 (c : Dev nD) (t : Fin cfg2.N) :
    (iblk2 V c 5 t : S1x128.Idx → Elt Ideal .f32) = (V c main_v41 : S1x128.Idx → Elt Ideal .f32) := by
  obtain ⟨-, -, -, -, -, -, -, -, -, -, e0, e1, -⟩ := idx2 t
  funext y
  show (V c main_v41 : S1x128.Idx → Elt Ideal .f32) (((cfg2.win 5).blk t).view.emb y) = _
  refine congrArg (V c main_v41 : S1x128.Idx → Elt Ideal .f32) (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

theorem blk2_6 (c : Dev nD) (t : Fin cfg2.N) :
    (iblk2 V c 6 t : S1x128.Idx → Elt Ideal .f32) = (V c main_v43 : S1x128.Idx → Elt Ideal .f32) := by
  obtain ⟨-, -, -, -, -, -, -, -, -, -, -, -, e0, e1, -⟩ := idx2 t
  funext y
  show (V c main_v43 : S1x128.Idx → Elt Ideal .f32) (((cfg2.win 6).blk t).view.emb y) = _
  refine congrArg (V c main_v43 : S1x128.Idx → Elt Ideal .f32) (funext fun a => Fin.ext ?_)
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

theorem blk2_7 (c : Dev nD) (t : Fin cfg2.N) :
    (iblk2 V c 7 t : S1x1.Idx → Elt Ideal .f32) = (V c main_v44 : S1x1.Idx → Elt Ideal .f32) := by
  obtain ⟨-, -, -, -, -, -, -, -, -, -, -, -, -, -, e0, e1, -⟩ := idx2 t
  funext y
  show (V c main_v44 : S1x1.Idx → Elt Ideal .f32) (((cfg2.win 7).blk t).view.emb y) = _
  refine congrArg (V c main_v44 : S1x1.Idx → Elt Ideal .f32) (funext fun a => Fin.ext ?_)
  match a with
  | ⟨0, _⟩ => show win2_7.index t (0 : Fin 2) * 1 + 1 * (y 0).val = (y 0).val; rw [e0]; omega
  | ⟨1, _⟩ => show win2_7.index t (1 : Fin 2) * 1 + 1 * (y 1).val = (y 1).val; rw [e1]; omega

/-- What grid point `t` writes back is block `t` of the score column of the whole arrays. -/
theorem flushed2 (c : Dev nD) (t : Fin cfg2.N) :
    (dat2 V c).flushed 8 t = ((cfg2.win 8).blk t).view.read (Elt Ideal) (G2 V c) := by
  show (cfg2.win 8).cut (grid2.coords t) ((dat2 V c).after 8 t) = _
  rw [after2_8]
  unfold out2_8
  rw [View.canon_unit_zero hz2]
  simp only [View.ld_unit_zero (S := S4000x128) hz2, View.ld_unit_zero (S := S128x128) hz2, View.ld_unit_zero (S := S1x128) hz2,
    View.ld_unit_zero (S := S1x1) hz2]
  rw [pay2_eq, blk2_2, blk2_3, blk2_4, blk2_5, blk2_6, blk2_7]
  obtain ⟨-, -, -, -, -, -, -, -, -, -, -, -, -, -, -, -, e0, e1, -⟩ := idx2 t
  funext y
  obtain ⟨p, u, rfl⟩ : ∃ (p : Fin 4000) (u : Fin 1), y = ix2 p u := ⟨y 0, y 1, eq_ix2 y⟩
  have hemb : ((cfg2.win 8).blk t).view.emb (ix2 p u) = (ix2 (row2 t p) u : S100000x1.Idx) := by
    funext a; apply Fin.ext
    match a with
    | ⟨0, _⟩ => show win2_8.index t (0 : Fin 2) * 4000 + 1 * p.val = t.val * 4000 + p.val; rw [e0]; omega
    | ⟨1, _⟩ => show win2_8.index t (1 : Fin 2) * 1 + 1 * u.val = u.val; rw [e1]; omega
  show score _ _ _ (ix2 p u) = G2 V c (((cfg2.win 8).blk t).view.emb (ix2 p u))
  rw [hemb]
  exact score_congr _ _ _ _ p (row2 t p) u fun e =>
    layer_congr _ _ _ _ _ _ _ _ p (row2 t p) e (fun j => blk2_0 V c t p j) (fun j => blk2_1 V c t p j)

/-- An index of the column lies in point `t`'s block iff each coordinate lies in the block's range. -/
theorem mem_blk2 (t : Fin cfg2.N) (i : S100000x1.Idx) :
    i ∈ ((cfg2.win 8).blk t).view.set ↔ ∀ a : Fin 2, win2_8.index t a * S4000x1.size a ≤ (i a).val ∧ (i a).val < win2_8.index t a * S4000x1.size a + S4000x1.size a := by
  show i ∈ ((View.whole main_v45).slice (win2_8.rect t)).set ↔ _
  rw [View.set_slice_whole, Rect.mem_set_unit]
  exact Iff.rfl

/-- Every row lies in the block of the point `row / 4000`. -/
theorem cover2 (i : S100000x1.Idx) :
    ∃ t : Fin cfg2.N, (cfg2.win 8).flush t = true ∧ i ∈ ((cfg2.win 8).blk t).view.set := by
  have hi0 : (i 0).val < 100000 := (i 0).isLt
  have hi1 : (i 1).val < 1 := (i 1).isLt
  have hN : cfg2.N = 25 := N_2
  let t : Fin cfg2.N := ⟨(i 0).val / 4000, by rw [hN]; omega⟩
  obtain ⟨-, -, -, -, -, -, -, -, -, -, -, -, -, -, -, -, e0, e1, -⟩ := idx2 t
  have ht : t.val = (i 0).val / 4000 := rfl
  refine ⟨t, flush2_8 t, ?_⟩
  rw [mem_blk2]
  intro a
  match a with
  | ⟨0, _⟩ => show win2_8.index t (0 : Fin 2) * 4000 ≤ (i 0).val ∧ (i 0).val < win2_8.index t (0 : Fin 2) * 4000 + 4000; rw [e0, ht]; omega
  | ⟨1, _⟩ => show win2_8.index t (1 : Fin 2) * 1 ≤ (i 1).val ∧ (i 1).val < win2_8.index t (1 : Fin 2) * 1 + 1; rw [e1]; omega

/-- The result column after the last launch: the score column of the arrays found at its entry. -/
theorem final2 (c : Dev nD) : (dat2 V c).arrAt 8 cfg2.N = G2 V c :=
  (dat2 V c).arrAt_eq_of_cover 8 (G2 V c) (fun t _ => flushed2 V c t) (cover2)

end Cert.KernelIdeal.Hand

end
-- ==== Proof.KernelChain.lean ====
/-
  The idealized kernel's result as one function of its arguments. With `s`, `d` the edges' source and destination
  nodes, `agg h` the neighbour sum of node features `h` along the edges and `layer` the two-matrix layer with its clamp
  and its `elu`: the three launches leave `h₀ = layer x (agg x) …`, `h₁ = layer h₀ (agg h₀) …`, and the score column of
  `h₂ = layer h₁ (agg h₁) …`; the last host operation flattens the column. The walk goes segment by segment: what each
  launch finds at its entry is read off the host stretch before it, and what it leaves is the layer of that.
-/
import proofs.«174884_j82179904242305_1_alg».proof.Proof.KernelRun
import proofs.«174884_j82179904242305_1_alg».proof.Proof.KernelHost
import proofs.«174884_j82179904242305_1_alg».proof.Proof.KernelLayer0
import proofs.«174884_j82179904242305_1_alg».proof.Proof.KernelLayer1
import proofs.«174884_j82179904242305_1_alg».proof.Proof.KernelFinal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Cert.LibGin

variable (m : (ℓ : Loc nD τ sig) → Buf (Elt Ideal) ℓ) (ρ : Dev nD → PrngReg) (c : Dev nD)

/-- The edges' source and destination nodes, of the edge list as launched. -/
def sK : (⟨S1600000, .i32⟩ : BufTy).Contents (Elt Ideal) := srcV (m ((c : Thread nD τ).loc main_arg1))
def dK : (⟨S1600000, .i32⟩ : BufTy).Contents (Elt Ideal) := dstV (m ((c : Thread nD τ).loc main_arg1))

/-- The node features after the first, second and third layer. -/
def H0K : S100000x128.Idx → Elt Ideal .f32 :=
  layer ((m ((c : Thread nD τ).loc main_arg0)) : S100000x128.Idx → Elt Ideal .f32) (aggV (m ((c : Thread nD τ).loc main_arg0)) (sK m c) (dK m c) : S100000x128.Idx → Elt Ideal .f32)
    ((m ((c : Thread nD τ).loc main_arg2)) : S128x128.Idx → Elt Ideal .f32) (fun e => (rowV (m ((c : Thread nD τ).loc main_arg3)) : S1x128.Idx → Elt Ideal .f32) (ix2 (0 : Fin 1) e))
    ((m ((c : Thread nD τ).loc main_arg4)) : S128x128.Idx → Elt Ideal .f32) (fun q => (rowV (m ((c : Thread nD τ).loc main_arg5)) : S1x128.Idx → Elt Ideal .f32) (ix2 (0 : Fin 1) q))
def H1K : S100000x128.Idx → Elt Ideal .f32 :=
  layer (H0K m c) (aggV (H0K m c) (sK m c) (dK m c) : S100000x128.Idx → Elt Ideal .f32)
    ((m ((c : Thread nD τ).loc main_arg6)) : S128x128.Idx → Elt Ideal .f32) (fun e => (rowV (m ((c : Thread nD τ).loc main_arg7)) : S1x128.Idx → Elt Ideal .f32) (ix2 (0 : Fin 1) e))
    ((m ((c : Thread nD τ).loc main_arg8)) : S128x128.Idx → Elt Ideal .f32) (fun q => (rowV (m ((c : Thread nD τ).loc main_arg9)) : S1x128.Idx → Elt Ideal .f32) (ix2 (0 : Fin 1) q))
def H2K : S100000x128.Idx → Elt Ideal .f32 :=
  layer (H1K m c) (aggV (H1K m c) (sK m c) (dK m c) : S100000x128.Idx → Elt Ideal .f32)
    ((m ((c : Thread nD τ).loc main_arg10)) : S128x128.Idx → Elt Ideal .f32) (fun e => (rowV (m ((c : Thread nD τ).loc main_arg11)) : S1x128.Idx → Elt Ideal .f32) (ix2 (0 : Fin 1) e))
    ((m ((c : Thread nD τ).loc main_arg12)) : S128x128.Idx → Elt Ideal .f32) (fun q => (rowV (m ((c : Thread nD τ).loc main_arg13)) : S1x128.Idx → Elt Ideal .f32) (ix2 (0 : Fin 1) q))
/-- The score column, and the result: the column flattened. -/
def RK : S100000x1.Idx → Elt Ideal .f32 :=
  score (H2K m c) (fun e => (lwRowV (m ((c : Thread nD τ).loc main_arg14)) : S1x128.Idx → Elt Ideal .f32) (ix2 (0 : Fin 1) e))
    ((lbV (m ((c : Thread nD τ).loc main_arg15)) : S1x1.Idx → Elt Ideal .f32) (ix2 (0 : Fin 1) (0 : Fin 1)))
def outK : (⟨S100000, .f32⟩ : BufTy).Contents (Elt Ideal) := flatV (RK m c)

/-! ## What the first launch finds and leaves -/

theorem v1_arg0 : V1 m ρ c main_arg0 = (m ((c : Thread nD τ).loc main_arg0)) := k0_arg0 (W0 m ρ c)
theorem v1_v13 : V1 m ρ c main_v13 = aggV (m ((c : Thread nD τ).loc main_arg0)) (sK m c) (dK m c) := s0_v13 (W0 m ρ c)
theorem v1_arg2 : V1 m ρ c main_arg2 = (m ((c : Thread nD τ).loc main_arg2)) := k0_arg2 (W0 m ρ c)
theorem v1_v14 : V1 m ρ c main_v14 = rowV (m ((c : Thread nD τ).loc main_arg3)) := s0_v14 (W0 m ρ c)
theorem v1_arg4 : V1 m ρ c main_arg4 = (m ((c : Thread nD τ).loc main_arg4)) := k0_arg4 (W0 m ρ c)
theorem v1_v15 : V1 m ρ c main_v15 = rowV (m ((c : Thread nD τ).loc main_arg5)) := s0_v15 (W0 m ρ c)

theorem w2_v16 : W2 m ρ c (Proc.devRef .tc main_v16) = H0K m c :=
  (W2_arr m ρ c 6).trans ((final0 (V1 m ρ) c).trans (by
    unfold G0 H0K
    rw [v1_arg0, v1_v13, v1_arg2, v1_v14, v1_arg4, v1_v15]))

/-! ## The buffers later segments read, carried along -/

theorem w2_v1 : W2 m ρ c (Proc.devRef .tc main_v1) = sK m c :=
  (W2_of_ne m ρ c main_v1 (by decide)).trans (s0_v1 (W0 m ρ c))
theorem w4_v1 : W4 m ρ c (Proc.devRef .tc main_v1) = sK m c :=
  (W4_of_ne m ρ c main_v1 (by decide)).trans ((k1_v1 (W2 m ρ c)).trans (w2_v1 m ρ c))
theorem w2_v3 : W2 m ρ c (Proc.devRef .tc main_v3) = dK m c :=
  (W2_of_ne m ρ c main_v3 (by decide)).trans (s0_v3 (W0 m ρ c))
theorem w4_v3 : W4 m ρ c (Proc.devRef .tc main_v3) = dK m c :=
  (W4_of_ne m ρ c main_v3 (by decide)).trans ((k1_v3 (W2 m ρ c)).trans (w2_v3 m ρ c))
theorem w2_arg6 : W2 m ρ c (Proc.devRef .tc main_arg6) = (m ((c : Thread nD τ).loc main_arg6)) :=
  (W2_of_ne m ρ c main_arg6 (by decide)).trans (k0_arg6 (W0 m ρ c))
theorem w2_arg7 : W2 m ρ c (Proc.devRef .tc main_arg7) = (m ((c : Thread nD τ).loc main_arg7)) :=
  (W2_of_ne m ρ c main_arg7 (by decide)).trans (k0_arg7 (W0 m ρ c))
theorem w2_arg8 : W2 m ρ c (Proc.devRef .tc main_arg8) = (m ((c : Thread nD τ).loc main_arg8)) :=
  (W2_of_ne m ρ c main_arg8 (by decide)).trans (k0_arg8 (W0 m ρ c))
theorem w2_arg9 : W2 m ρ c (Proc.devRef .tc main_arg9) = (m ((c : Thread nD τ).loc main_arg9)) :=
  (W2_of_ne m ρ c main_arg9 (by decide)).trans (k0_arg9 (W0 m ρ c))
theorem w2_arg10 : W2 m ρ c (Proc.devRef .tc main_arg10) = (m ((c : Thread nD τ).loc main_arg10)) :=
  (W2_of_ne m ρ c main_arg10 (by decide)).trans (k0_arg10 (W0 m ρ c))
theorem w4_arg10 : W4 m ρ c (Proc.devRef .tc main_arg10) = (m ((c : Thread nD τ).loc main_arg10)) :=
  (W4_of_ne m ρ c main_arg10 (by decide)).trans ((k1_arg10 (W2 m ρ c)).trans (w2_arg10 m ρ c))
theorem w2_arg11 : W2 m ρ c (Proc.devRef .tc main_arg11) = (m ((c : Thread nD τ).loc main_arg11)) :=
  (W2_of_ne m ρ c main_arg11 (by decide)).trans (k0_arg11 (W0 m ρ c))
theorem w4_arg11 : W4 m ρ c (Proc.devRef .tc main_arg11) = (m ((c : Thread nD τ).loc main_arg11)) :=
  (W4_of_ne m ρ c main_arg11 (by decide)).trans ((k1_arg11 (W2 m ρ c)).trans (w2_arg11 m ρ c))
theorem w2_arg12 : W2 m ρ c (Proc.devRef .tc main_arg12) = (m ((c : Thread nD τ).loc main_arg12)) :=
  (W2_of_ne m ρ c main_arg12 (by decide)).trans (k0_arg12 (W0 m ρ c))
theorem w4_arg12 : W4 m ρ c (Proc.devRef .tc main_arg12) = (m ((c : Thread nD τ).loc main_arg12)) :=
  (W4_of_ne m ρ c main_arg12 (by decide)).trans ((k1_arg12 (W2 m ρ c)).trans (w2_arg12 m ρ c))
theorem w2_arg13 : W2 m ρ c (Proc.devRef .tc main_arg13) = (m ((c : Thread nD τ).loc main_arg13)) :=
  (W2_of_ne m ρ c main_arg13 (by decide)).trans (k0_arg13 (W0 m ρ c))
theorem w4_arg13 : W4 m ρ c (Proc.devRef .tc main_arg13) = (m ((c : Thread nD τ).loc main_arg13)) :=
  (W4_of_ne m ρ c main_arg13 (by decide)).trans ((k1_arg13 (W2 m ρ c)).trans (w2_arg13 m ρ c))
theorem w2_arg14 : W2 m ρ c (Proc.devRef .tc main_arg14) = (m ((c : Thread nD τ).loc main_arg14)) :=
  (W2_of_ne m ρ c main_arg14 (by decide)).trans (k0_arg14 (W0 m ρ c))
theorem w4_arg14 : W4 m ρ c (Proc.devRef .tc main_arg14) = (m ((c : Thread nD τ).loc main_arg14)) :=
  (W4_of_ne m ρ c main_arg14 (by decide)).trans ((k1_arg14 (W2 m ρ c)).trans (w2_arg14 m ρ c))
theorem w2_arg15 : W2 m ρ c (Proc.devRef .tc main_arg15) = (m ((c : Thread nD τ).loc main_arg15)) :=
  (W2_of_ne m ρ c main_arg15 (by decide)).trans (k0_arg15 (W0 m ρ c))
theorem w4_arg15 : W4 m ρ c (Proc.devRef .tc main_arg15) = (m ((c : Thread nD τ).loc main_arg15)) :=
  (W4_of_ne m ρ c main_arg15 (by decide)).trans ((k1_arg15 (W2 m ρ c)).trans (w2_arg15 m ρ c))

/-! ## What the second launch finds and leaves -/

theorem v3_v16 : V3 m ρ c main_v16 = H0K m c := (k1_v16 (W2 m ρ c)).trans (w2_v16 m ρ c)
theorem v3_v26 : V3 m ρ c main_v26 = aggV (H0K m c) (sK m c) (dK m c) :=
  (s1_v26 (W2 m ρ c)).trans (by rw [w2_v16, w2_v1, w2_v3])
theorem v3_arg6 : V3 m ρ c main_arg6 = (m ((c : Thread nD τ).loc main_arg6)) := (k1_arg6 (W2 m ρ c)).trans (w2_arg6 m ρ c)
theorem v3_v27 : V3 m ρ c main_v27 = rowV (m ((c : Thread nD τ).loc main_arg7)) := (s1_v27 (W2 m ρ c)).trans (by rw [w2_arg7])
theorem v3_arg8 : V3 m ρ c main_arg8 = (m ((c : Thread nD τ).loc main_arg8)) := (k1_arg8 (W2 m ρ c)).trans (w2_arg8 m ρ c)
theorem v3_v28 : V3 m ρ c main_v28 = rowV (m ((c : Thread nD τ).loc main_arg9)) := (s1_v28 (W2 m ρ c)).trans (by rw [w2_arg9])

theorem w4_v29 : W4 m ρ c (Proc.devRef .tc main_v29) = H1K m c :=
  (W4_arr m ρ c 6).trans ((final1 (V3 m ρ) c).trans (by
    unfold G1 H1K
    rw [v3_v16, v3_v26, v3_arg6, v3_v27, v3_arg8, v3_v28]))

/-! ## What the last launch finds and leaves -/

theorem v5_v29 : V5 m ρ c main_v29 = H1K m c := (k2_v29 (W4 m ρ c)).trans (w4_v29 m ρ c)
theorem v5_v39 : V5 m ρ c main_v39 = aggV (H1K m c) (sK m c) (dK m c) :=
  (s2_v39 (W4 m ρ c)).trans (by rw [w4_v29, w4_v1, w4_v3])
theorem v5_arg10 : V5 m ρ c main_arg10 = (m ((c : Thread nD τ).loc main_arg10)) := (k2_arg10 (W4 m ρ c)).trans (w4_arg10 m ρ c)
theorem v5_v40 : V5 m ρ c main_v40 = rowV (m ((c : Thread nD τ).loc main_arg11)) := (s2_v40 (W4 m ρ c)).trans (by rw [w4_arg11])
theorem v5_arg12 : V5 m ρ c main_arg12 = (m ((c : Thread nD τ).loc main_arg12)) := (k2_arg12 (W4 m ρ c)).trans (w4_arg12 m ρ c)
theorem v5_v41 : V5 m ρ c main_v41 = rowV (m ((c : Thread nD τ).loc main_arg13)) := (s2_v41 (W4 m ρ c)).trans (by rw [w4_arg13])
theorem v5_v43 : V5 m ρ c main_v43 = lwRowV (m ((c : Thread nD τ).loc main_arg14)) := (s2_v43 (W4 m ρ c)).trans (by rw [w4_arg14])
theorem v5_v44 : V5 m ρ c main_v44 = lbV (m ((c : Thread nD τ).loc main_arg15)) := (s2_v44 (W4 m ρ c)).trans (by rw [w4_arg15])

theorem w6_v45 : W6 m ρ c (Proc.devRef .tc main_v45) = RK m c :=
  (W6_arr m ρ c 8).trans ((final2 (V5 m ρ) c).trans (by
    unfold G2 H2 RK H2K
    rw [v5_v29, v5_v39, v5_arg10, v5_v40, v5_arg12, v5_v41, v5_v43, v5_v44]))

theorem w7_v46 : W7 m ρ c (Proc.devRef .tc main_v46) = outK m c :=
  (s3_v46 (W6 m ρ c)).trans (by rw [w6_v45]; rfl)

/-! ## The run, read -/

/-- Every weakly fair execution of the idealized kernel's program terminates with the result buffer at `outK` of the
    arguments as launched, and the arguments unchanged. -/
theorem run : θ_run defs (onTc (τ := τ) (main (F := Ideal))) ⟨m, fun _ => 0, ρ⟩ (fun r => ∀ c : Dev nD,
      r.2.mem ((c.tc : Thread nD τ).loc main_v46) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (w7_v46 m ρ c), (h c).2⟩) (run_value m ρ)

end Cert.KernelIdeal.Hand

end
-- ==== Proof.RefRun.lean ====
/-
  The run of the reference program, a three-layer graph network followed by a logistic read-out.

  With src and dst the two rows of the edge list (a negative source index wrapped by adding the node count),
  one layer maps the node features h to
      elu (relu ((h + agg h) · Wa + ba) · Wb + bb),     agg h = Σ over edges (s → d) of row s of h, added into row d,
  and the output is 1 / (1 + exp (−(h₃ · w + b))), one value per node.  Below: that function written over the
  host operations (`agg`, `relu`, `elu`, `layer`, `out`), the program as the list of its 137 operations with
  the called functions' operations in place of the calls, and the statement that every weakly fair execution
  terminates with the result buffer at `out` of the arguments' initial contents and the arguments unchanged.
-/
import proofs.«174884_j82179904242305_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The function -/

/-- The neighbourhood sum: row `d` of the result is the sum of the rows `s` of `x` over the edges `s → d`
    (sources in row 0 of `ei`, a negative one wrapped by adding 100000; destinations in row 1), accumulated
    into zeros. -/
def agg (x : (⟨S100000x128, .f32⟩ : BufTy).Contents (Elt F)) (ei : (⟨S2x1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (shapeCast S1600000 (extractStridedSlice S1x1600000 ![1, 0] ei slices_S2x1600000_S1x1600000_1_0) shapeCasts_S1x1600000_S1600000))
    (Host.gather gather_S100000x128_S1600000x1_S1600000x128_1_0_n_n_0_1_1128 x
      (broadcastInDim S1600000x1 ![0] bcast_S1600000_S1600000x1_0
        (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32)))
          (addi (shapeCast S1600000 (extractStridedSlice S1x1600000 ![0, 0] ei slices_S2x1600000_S1x1600000_0_0) shapeCasts_S1x1600000_S1600000) (broadcastInDim S1600000 ![] bcast_S_S1600000 (constantI S_ 32 100000#32))) (shapeCast S1600000 (extractStridedSlice S1x1600000 ![0, 0] ei slices_S2x1600000_S1x1600000_0_0) shapeCasts_S1x1600000_S1600000))))

/-- max(y, 0). -/
def relu (y : (⟨S100000x128, .f32⟩ : BufTy).Contents (Elt F)) : (⟨S100000x128, .f32⟩ : BufTy).Contents (Elt F) :=
  maximumf y (broadcastInDim S100000x128 ![] bcast_S_S100000x128 (constant S_ .f32 0x00000000#32))

/-- y where y > 0, else 1 · (exp(min-branch) − 1): the exponential is taken of 0 where y > 0 and of y elsewhere. -/
def elu (y : (⟨S100000x128, .f32⟩ : BufTy).Contents (Elt F)) : (⟨S100000x128, .f32⟩ : BufTy).Contents (Elt F) :=
  select (cmpf .ogt y (broadcastInDim S100000x128 ![] bcast_S_S100000x128 (constant S_ .f32 0x00000000#32))) y
    (mulf (broadcastInDim S100000x128 ![] bcast_S_S100000x128 (constant S_ .f32 0x3F800000#32))
      (Host.expm1 (select (cmpf .ogt y (broadcastInDim S100000x128 ![] bcast_S_S100000x128 (constant S_ .f32 0x00000000#32)))
        (broadcastInDim S100000x128 ![] bcast_S_S100000x128 (id (constant S_ .f32 0x00000000#32))) y)))

/-- One layer: elu (relu ((x + agg x) · wa + ba) · wb + bb), the biases broadcast along the rows. -/
def layer (x : (⟨S100000x128, .f32⟩ : BufTy).Contents (Elt F)) (ei : (⟨S2x1600000, .i32⟩ : BufTy).Contents (Elt F)) (wa : (⟨S128x128, .f32⟩ : BufTy).Contents (Elt F)) (ba : (⟨S128, .f32⟩ : BufTy).Contents (Elt F)) (wb : (⟨S128x128, .f32⟩ : BufTy).Contents (Elt F)) (bb : (⟨S128, .f32⟩ : BufTy).Contents (Elt F)) : (⟨S100000x128, .f32⟩ : BufTy).Contents (Elt F) :=
  elu (addf (Host.dotGeneral dot_S100000x128_S128x128_S100000x128_1_0_0_1_n_n none (relu (addf (Host.dotGeneral dot_S100000x128_S128x128_S100000x128_1_0_0_1_n_n none (addf x (agg x ei)) wa) (broadcastInDim S100000x128 ![0, 1] bcast_S1x128_S100000x128_0_1 (broadcastInDim S1x128 ![1] bcast_S128_S1x128_1 ba)))) wb) (broadcastInDim S100000x128 ![0, 1] bcast_S1x128_S100000x128_0_1 (broadcastInDim S1x128 ![1] bcast_S128_S1x128_1 bb)))

/-- The whole function: three layers, then 1 / (1 + exp (−(h · lin_w + lin_b))) as a vector over the nodes. -/
def out (x : (⟨S100000x128, .f32⟩ : BufTy).Contents (Elt F)) (ei : (⟨S2x1600000, .i32⟩ : BufTy).Contents (Elt F))
    (w0a : (⟨S128x128, .f32⟩ : BufTy).Contents (Elt F)) (b0a : (⟨S128, .f32⟩ : BufTy).Contents (Elt F)) (w0b : (⟨S128x128, .f32⟩ : BufTy).Contents (Elt F)) (b0b : (⟨S128, .f32⟩ : BufTy).Contents (Elt F))
    (w1a : (⟨S128x128, .f32⟩ : BufTy).Contents (Elt F)) (b1a : (⟨S128, .f32⟩ : BufTy).Contents (Elt F)) (w1b : (⟨S128x128, .f32⟩ : BufTy).Contents (Elt F)) (b1b : (⟨S128, .f32⟩ : BufTy).Contents (Elt F))
    (w2a : (⟨S128x128, .f32⟩ : BufTy).Contents (Elt F)) (b2a : (⟨S128, .f32⟩ : BufTy).Contents (Elt F)) (w2b : (⟨S128x128, .f32⟩ : BufTy).Contents (Elt F)) (b2b : (⟨S128, .f32⟩ : BufTy).Contents (Elt F))
    (lin_w : (⟨S128x1, .f32⟩ : BufTy).Contents (Elt F)) (lin_b : (⟨S1, .f32⟩ : BufTy).Contents (Elt F)) : (⟨S100000, .f32⟩ : BufTy).Contents (Elt F) :=
  shapeCast S100000
    (Host.divf (broadcastInDim S100000x1 ![] bcast_S_S100000x1 (constant S_ .f32 0x3F800000#32))
      (addf (broadcastInDim S100000x1 ![] bcast_S_S100000x1 (constant S_ .f32 0x3F800000#32))
        (Host.exp (Host.negf (addf (Host.dotGeneral dot_S100000x128_S128x1_S100000x1_1_0_0_1_n_n none (layer (layer (layer x ei w0a b0a w0b b0b) ei w1a b1a w1b b1b) ei w2a b2a w2b b2b) lin_w)
          (broadcastInDim S100000x1 ![0, 1] bcast_S1x1_S100000x1_0_1 (broadcastInDim S1x1 ![1] bcast_S1_S1x1_1 lin_b)))))))
    shapeCasts_S100000x1_S100000

/-! ## The program as a list of operations -/

/-- The 137 operations in order: the program's own 84 lines, and in place of each call the called function's
    lines over that call's buffers (three for max(·, 0); fifteen for elu, of which three are the inner choice with a
    scalar branch and one the outer choice). -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v18) main_call0.v0 main_call0.v1 maximumf,
    StableHlo.binary main_v19 main_arg4 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v23) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v23) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v23) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v23) main_call1.v7 main_call1.call1.v0 select,
    StableHlo.nullary main_c_1 (constantI S_ 32 0#32),
    StableHlo.unary main_c_1 main_v25 (broadcastInDim S1600000 ![] bcast_S_S1600000 : (⟨S_, .i32⟩ : BufTy).Contents (Elt F) → (⟨S1600000, .i32⟩ : BufTy).Contents (Elt F)),
    StableHlo.binary main_v1 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v27 (broadcastInDim S1600000 ![] bcast_S_S1600000 : (⟨S_, .i32⟩ : BufTy).Contents (Elt F) → (⟨S1600000, .i32⟩ : BufTy).Contents (Elt F)),
    StableHlo.binary main_v1 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_v24 main_v30 main_v31 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_3 (constant S_ .f32 0x00000000#32),
    StableHlo.unary main_cst_3 main_v32 (broadcastInDim S100000x128 ![] bcast_S_S100000x128 : (⟨S_, .f32⟩ : BufTy).Contents (Elt F) → (⟨S100000x128, .f32⟩ : BufTy).Contents (Elt F)),
    StableHlo.unary main_v3 main_v33 (broadcastInDim S1600000x1 ![0] bcast_S1600000_S1600000x1_0 : (⟨S1600000, .i32⟩ : BufTy).Contents (Elt F) → (⟨S1600000x1, .i32⟩ : BufTy).Contents (Elt F)),
    StableHlo.ternary main_v32 main_v33 main_v31 main_v34 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v24 main_v34 main_v35 (addf : (⟨S100000x128, .f32⟩ : BufTy).Contents (Elt F) → (⟨S100000x128, .f32⟩ : BufTy).Contents (Elt F) → (⟨S100000x128, .f32⟩ : BufTy).Contents (Elt F)),
    StableHlo.binary main_v35 main_arg6 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v39) main_call2.v0 main_call2.v1 maximumf,
    StableHlo.binary main_v40 main_arg8 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v43 main_v44 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v44) main_call3.v0 main_call3.v1 (cmpf .ogt),
    StableHlo.TRef.nullary main_call3.cst_0 (constant S_ .f32 0x00000000#32),
    StableHlo.TRef.unary main_call3.cst_0 main_call3.v2 (broadcastInDim S100000x128 ![] bcast_S_S100000x128),
    StableHlo.TRef.binary (.of main_v44) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x128 ![] bcast_S_S100000x128),
    StableHlo.TRef.ternary main_call3.v3 main_call3.call0.v1 (.of main_v44) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x128 ![] bcast_S_S100000x128),
    StableHlo.TRef.binary main_call3.v6 main_call3.v5 main_call3.v7 mulf,
    StableHlo.TRef.ternary main_call3.v1 (.of main_v44) main_call3.v7 main_call3.call1.v0 select,
    StableHlo.nullary main_c_4 (constantI S_ 32 0#32),
    StableHlo.unary main_c_4 main_v46 (broadcastInDim S1600000 ![] bcast_S_S1600000 : (⟨S_, .i32⟩ : BufTy).Contents (Elt F) → (⟨S1600000, .i32⟩ : BufTy).Contents (Elt F)),
    StableHlo.binary main_v1 main_v46 main_v47 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v48 (broadcastInDim S1600000 ![] bcast_S_S1600000 : (⟨S_, .i32⟩ : BufTy).Contents (Elt F) → (⟨S1600000, .i32⟩ : BufTy).Contents (Elt F)),
    StableHlo.binary main_v1 main_v48 main_v49 (addi : (⟨S1600000, .i32⟩ : BufTy).Contents (Elt F) → (⟨S1600000, .i32⟩ : BufTy).Contents (Elt F) → (⟨S1600000, .i32⟩ : BufTy).Contents (Elt F)),
    StableHlo.ternary main_v47 main_v49 main_v1 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v50 main_v51 (broadcastInDim S1600000x1 ![0] bcast_S1600000_S1600000x1_0 : (⟨S1600000, .i32⟩ : BufTy).Contents (Elt F) → (⟨S1600000x1, .i32⟩ : BufTy).Contents (Elt F)),
    StableHlo.binary main_v45 main_v51 main_v52 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_6 (constant S_ .f32 0x00000000#32),
    StableHlo.unary main_cst_6 main_v53 (broadcastInDim S100000x128 ![] bcast_S_S100000x128 : (⟨S_, .f32⟩ : BufTy).Contents (Elt F) → (⟨S100000x128, .f32⟩ : BufTy).Contents (Elt F)),
    StableHlo.unary main_v3 main_v54 (broadcastInDim S1600000x1 ![0] bcast_S1600000_S1600000x1_0 : (⟨S1600000, .i32⟩ : BufTy).Contents (Elt F) → (⟨S1600000x1, .i32⟩ : BufTy).Contents (Elt F)),
    StableHlo.ternary main_v53 main_v54 main_v52 main_v55 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v45 main_v55 main_v56 (addf : (⟨S100000x128, .f32⟩ : BufTy).Contents (Elt F) → (⟨S100000x128, .f32⟩ : BufTy).Contents (Elt F) → (⟨S100000x128, .f32⟩ : BufTy).Contents (Elt F)),
    StableHlo.binary main_v56 main_arg10 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v60) main_call4.v0 main_call4.v1 maximumf,
    StableHlo.binary main_v61 main_arg12 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v65) main_call5.v0 main_call5.v1 (cmpf .ogt),
    StableHlo.TRef.nullary main_call5.cst_0 (constant S_ .f32 0x00000000#32),
    StableHlo.TRef.unary main_call5.cst_0 main_call5.v2 (broadcastInDim S100000x128 ![] bcast_S_S100000x128),
    StableHlo.TRef.binary (.of main_v65) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x128 ![] bcast_S_S100000x128),
    StableHlo.TRef.ternary main_call5.v3 main_call5.call0.v1 (.of main_v65) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x128 ![] bcast_S_S100000x128),
    StableHlo.TRef.binary main_call5.v6 main_call5.v5 main_call5.v7 mulf,
    StableHlo.TRef.ternary main_call5.v1 (.of main_v65) main_call5.v7 main_call5.call1.v0 select,
    StableHlo.binary main_v66 main_arg14 main_v67 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.unary main_arg15 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S100000x1 ![0, 1] bcast_S1x1_S100000x1_0_1 : (⟨S1x1, .f32⟩ : BufTy).Contents (Elt F) → (⟨S100000x1, .f32⟩ : BufTy).Contents (Elt F)),
    StableHlo.binary main_v67 main_v69 main_v70 (addf : (⟨S100000x1, .f32⟩ : BufTy).Contents (Elt F) → (⟨S100000x1, .f32⟩ : BufTy).Contents (Elt F) → (⟨S100000x1, .f32⟩ : BufTy).Contents (Elt F)),
    StableHlo.unary main_v70 main_v71 (Host.negf : (⟨S100000x1, .f32⟩ : BufTy).Contents (Elt F) → (⟨S100000x1, .f32⟩ : BufTy).Contents (Elt F)),
    StableHlo.unary main_v71 main_v72 (Host.exp : (⟨S100000x1, .f32⟩ : BufTy).Contents (Elt F) → (⟨S100000x1, .f32⟩ : BufTy).Contents (Elt F)),
    StableHlo.nullary main_cst_7 (constant S_ .f32 0x3F800000#32),
    StableHlo.unary main_cst_7 main_v73 (broadcastInDim S100000x1 ![] bcast_S_S100000x1 : (⟨S_, .f32⟩ : BufTy).Contents (Elt F) → (⟨S100000x1, .f32⟩ : BufTy).Contents (Elt F)),
    StableHlo.binary main_v73 main_v72 main_v74 (addf : (⟨S100000x1, .f32⟩ : BufTy).Contents (Elt F) → (⟨S100000x1, .f32⟩ : BufTy).Contents (Elt F) → (⟨S100000x1, .f32⟩ : BufTy).Contents (Elt F)),
    StableHlo.nullary main_cst_8 (constant S_ .f32 0x3F800000#32),
    StableHlo.unary main_cst_8 main_v75 (broadcastInDim S100000x1 ![] bcast_S_S100000x1 : (⟨S_, .f32⟩ : BufTy).Contents (Elt F) → (⟨S100000x1, .f32⟩ : BufTy).Contents (Elt F)),
    StableHlo.binary main_v75 main_v74 main_v76 (Host.divf : (⟨S100000x1, .f32⟩ : BufTy).Contents (Elt F) → (⟨S100000x1, .f32⟩ : BufTy).Contents (Elt F) → (⟨S100000x1, .f32⟩ : BufTy).Contents (Elt F)),
    StableHlo.reshape main_v76 main_v77 rfl shapeCasts_S100000x1_S100000 ]

-- 137 binds re-associated: the rewrite under the chain recurses once per statement
set_option maxRecDepth 8192 in
set_option maxHeartbeats 4000000 in
/-- The program is that straight line: the functions unfolded at their calls and the two windows joined, both sides
    are one chain of steps once sequencing is re-associated. -/
theorem main_eq (c : Dev nD) : main (F := F) c = seq ops := by
  simp only [main, main_part0, main_part1, fn_relu.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

/-! ## The run read back, stretch by stretch

The line is cut into five stretches — the two rows of the edge list; the three layers; the read-out — and each is
read from whatever contents it starts at: a stretch's result is the corresponding function of the buffers it reads,
and every buffer it does not write keeps its contents. Composing the five gives the whole line. -/

/-- Two stretches one after the other: the second's fold over the first's. -/
theorem after_append (l1 l2 : List (HloOp τ sig (Elt F))) (V : Valuation τ sig (Elt F)) :
    after (l1 ++ l2) V = after l2 (after l1 V) := by
  induction l1 generalizing V with
  | nil => rfl
  | cons a l ih => exact ih _

/-- An operation writing the one buffer `y`, a member of the list, writes inside the list. -/
theorem writes_sub_of_mem {op : HloOp τ sig (Elt F)} {y : Ref sig .tc} {Wl : List (Ref sig .tc)}
    (hw : op.writes = {Proc.devRef .tc y}) (hy : y ∈ Wl) :
    op.writes ⊆ (Wl.map (Proc.devRef (τ := τ) .tc)).toFinset := by
  rw [hw, Finset.singleton_subset_iff, List.mem_toFinset]
  exact List.mem_map_of_mem hy

/-- The source indices: row 0 of the edge list. -/
def src (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000
/-- The destination indices: row 1 of the edge list. -/
def dst (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000
/-- The neighbourhood sum over given source and destination indices. -/
def aggOf (x : (⟨S100000x128, .f32⟩ : BufTy).Contents (Elt F)) (s d : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 x
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))
/-- One layer over given source and destination indices. -/
def layerOf (x : (⟨S100000x128, .f32⟩ : BufTy).Contents (Elt F)) (s d : (⟨S1600000, .i32⟩ : BufTy).Contents (Elt F)) (wa : (⟨S128x128, .f32⟩ : BufTy).Contents (Elt F)) (ba : (⟨S128, .f32⟩ : BufTy).Contents (Elt F)) (wb : (⟨S128x128, .f32⟩ : BufTy).Contents (Elt F)) (bb : (⟨S128, .f32⟩ : BufTy).Contents (Elt F)) : (⟨S100000x128, .f32⟩ : BufTy).Contents (Elt F) :=
  elu (addf (Host.dotGeneral dot_S100000x128_S128x128_S100000x128_1_0_0_1_n_n none (relu (addf (Host.dotGeneral dot_S100000x128_S128x128_S100000x128_1_0_0_1_n_n none (addf x (aggOf x s d)) wa) (broadcastInDim S100000x128 ![0, 1] bcast_S1x128_S100000x128_0_1 (broadcastInDim S1x128 ![1] bcast_S128_S1x128_1 ba)))) wb) (broadcastInDim S100000x128 ![0, 1] bcast_S1x128_S100000x128_0_1 (broadcastInDim S1x128 ![1] bcast_S128_S1x128_1 bb)))
/-- The read-out: 1 / (1 + exp (−(h · lin_w + lin_b))) as a vector over the nodes. -/
def readout (h : (⟨S100000x128, .f32⟩ : BufTy).Contents (Elt F)) (lin_w : (⟨S128x1, .f32⟩ : BufTy).Contents (Elt F)) (lin_b : (⟨S1, .f32⟩ : BufTy).Contents (Elt F)) : (⟨S100000, .f32⟩ : BufTy).Contents (Elt F) :=
  shapeCast S100000
    (Host.divf (broadcastInDim S100000x1 ![] bcast_S_S100000x1 (constant S_ .f32 0x3F800000#32))
      (addf (broadcastInDim S100000x1 ![] bcast_S_S100000x1 (constant S_ .f32 0x3F800000#32))
        (Host.exp (Host.negf (addf (Host.dotGeneral dot_S100000x128_S128x1_S100000x1_1_0_0_1_n_n none h lin_w)
          (broadcastInDim S100000x1 ![0, 1] bcast_S1x1_S100000x1_0_1 (broadcastInDim S1x1 ![1] bcast_S1_S1x1_1 lin_b)))))))
    shapeCasts_S100000x1_S100000

theorem out_def (x : (⟨S100000x128, .f32⟩ : BufTy).Contents (Elt F)) (ei : (⟨S2x1600000, .i32⟩ : BufTy).Contents (Elt F))
    (w0a : (⟨S128x128, .f32⟩ : BufTy).Contents (Elt F)) (b0a : (⟨S128, .f32⟩ : BufTy).Contents (Elt F)) (w0b : (⟨S128x128, .f32⟩ : BufTy).Contents (Elt F)) (b0b : (⟨S128, .f32⟩ : BufTy).Contents (Elt F))
    (w1a : (⟨S128x128, .f32⟩ : BufTy).Contents (Elt F)) (b1a : (⟨S128, .f32⟩ : BufTy).Contents (Elt F)) (w1b : (⟨S128x128, .f32⟩ : BufTy).Contents (Elt F)) (b1b : (⟨S128, .f32⟩ : BufTy).Contents (Elt F))
    (w2a : (⟨S128x128, .f32⟩ : BufTy).Contents (Elt F)) (b2a : (⟨S128, .f32⟩ : BufTy).Contents (Elt F)) (w2b : (⟨S128x128, .f32⟩ : BufTy).Contents (Elt F)) (b2b : (⟨S128, .f32⟩ : BufTy).Contents (Elt F))
    (lin_w : (⟨S128x1, .f32⟩ : BufTy).Contents (Elt F)) (lin_b : (⟨S1, .f32⟩ : BufTy).Contents (Elt F)) :
    out x ei w0a b0a w0b b0b w1a b1a w1b b1b w2a b2a w2b b2b lin_w lin_b
      = readout (layerOf (layerOf (layerOf x (src ei) (dst ei) w0a b0a w0b b0b) (src ei) (dst ei) w1a b1a w1b b1b) (src ei) (dst ei) w2a b2a w2b b2b) lin_w lin_b := rfl

/-- Stretch 0: operations 0 … 3. -/
def opsI : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]
/-- The buffers stretch 0 writes. -/
def wI : List (Ref sig .tc) :=
  [main_v0, main_v1, main_v2, main_v3]
theorem hwI : (opsI : List (HloOp τ sig (Elt F))).Forall fun op => op.writes ⊆ ((wI).map (Proc.devRef (τ := τ) .tc)).toFinset :=
  ⟨writes_sub_of_mem (y := main_v0) rfl (by decide),
    writes_sub_of_mem (y := main_v1) rfl (by decide),
    writes_sub_of_mem (y := main_v2) rfl (by decide),
    writes_sub_of_mem (y := main_v3) rfl (by decide)⟩
/-- A buffer stretch 0 does not write keeps its contents. -/
theorem frameI (W : Valuation τ sig (Elt F)) {r : Ref sig .tc} (h : r ∉ wI) :
    after opsI W (no_index (Proc.devRef .tc r)) = W (Proc.devRef .tc r) :=
  after_of_writes_sub opsI W hwI h

/-- Stretch 1: operations 4 … 43. -/
def opsL1 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v18) main_call0.v0 main_call0.v1 maximumf,
    StableHlo.binary main_v19 main_arg4 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v23) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v23) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v23) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v23) main_call1.v7 main_call1.call1.v0 select ]
/-- The buffers stretch 1 writes. -/
def wL1 : List (Ref sig .tc) :=
  [main_c, main_v4, main_v5, main_c_0, main_v6, main_v7, main_v8, main_v9, main_v10, main_cst, main_v11, main_v12, main_v13, main_v14, main_v15, main_v16, main_v17, main_v18, main_call0.cst.ref, main_call0.v0.ref, main_call0.v1.ref, main_v20, main_v21, main_v22, main_v23, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]
theorem hwL1 : (opsL1 : List (HloOp τ sig (Elt F))).Forall fun op => op.writes ⊆ ((wL1).map (Proc.devRef (τ := τ) .tc)).toFinset :=
  ⟨writes_sub_of_mem (y := main_c) rfl (by decide),
    writes_sub_of_mem (y := main_v4) rfl (by decide),
    writes_sub_of_mem (y := main_v5) rfl (by decide),
    writes_sub_of_mem (y := main_c_0) rfl (by decide),
    writes_sub_of_mem (y := main_v6) rfl (by decide),
    writes_sub_of_mem (y := main_v7) rfl (by decide),
    writes_sub_of_mem (y := main_v8) rfl (by decide),
    writes_sub_of_mem (y := main_v9) rfl (by decide),
    writes_sub_of_mem (y := main_v10) rfl (by decide),
    writes_sub_of_mem (y := main_cst) rfl (by decide),
    writes_sub_of_mem (y := main_v11) rfl (by decide),
    writes_sub_of_mem (y := main_v12) rfl (by decide),
    writes_sub_of_mem (y := main_v13) rfl (by decide),
    writes_sub_of_mem (y := main_v14) rfl (by decide),
    writes_sub_of_mem (y := main_v15) rfl (by decide),
    writes_sub_of_mem (y := main_v16) rfl (by decide),
    writes_sub_of_mem (y := main_v17) rfl (by decide),
    writes_sub_of_mem (y := main_v18) rfl (by decide),
    writes_sub_of_mem (y := main_call0.cst.ref) rfl (by decide),
    writes_sub_of_mem (y := main_call0.v0.ref) rfl (by decide),
    writes_sub_of_mem (y := main_call0.v1.ref) rfl (by decide),
    writes_sub_of_mem (y := main_v20) rfl (by decide),
    writes_sub_of_mem (y := main_v21) rfl (by decide),
    writes_sub_of_mem (y := main_v22) rfl (by decide),
    writes_sub_of_mem (y := main_v23) rfl (by decide),
    writes_sub_of_mem (y := main_call1.cst.ref) rfl (by decide),
    writes_sub_of_mem (y := main_call1.v0.ref) rfl (by decide),
    writes_sub_of_mem (y := main_call1.v1.ref) rfl (by decide),
    writes_sub_of_mem (y := main_call1.cst_0.ref) rfl (by decide),
    writes_sub_of_mem (y := main_call1.v2.ref) rfl (by decide),
    writes_sub_of_mem (y := main_call1.v3.ref) rfl (by decide),
    writes_sub_of_mem (y := main_call1.cst_1.ref) rfl (by decide),
    writes_sub_of_mem (y := main_call1.call0.v0.ref) rfl (by decide),
    writes_sub_of_mem (y := main_call1.call0.v1.ref) rfl (by decide),
    writes_sub_of_mem (y := main_call1.call0.v2.ref) rfl (by decide),
    writes_sub_of_mem (y := main_call1.v5.ref) rfl (by decide),
    writes_sub_of_mem (y := main_call1.cst_2.ref) rfl (by decide),
    writes_sub_of_mem (y := main_call1.v6.ref) rfl (by decide),
    writes_sub_of_mem (y := main_call1.v7.ref) rfl (by decide),
    writes_sub_of_mem (y := main_call1.call1.v0.ref) rfl (by decide)⟩
/-- A buffer stretch 1 does not write keeps its contents. -/
theorem frameL1 (W : Valuation τ sig (Elt F)) {r : Ref sig .tc} (h : r ∉ wL1) :
    after opsL1 W (no_index (Proc.devRef .tc r)) = W (Proc.devRef .tc r) :=
  after_of_writes_sub opsL1 W hwL1 h

/-- Stretch 2: operations 44 … 83. -/
def opsL2 : List (HloOp τ sig (Elt F)) :=
  [ StableHlo.nullary main_c_1 (constantI S_ 32 0#32),
    StableHlo.unary main_c_1 main_v25 (broadcastInDim S1600000 ![] bcast_S_S1600000 : (⟨S_, .i32⟩ : BufTy).Contents (Elt F) → (⟨S1600000, .i32⟩ : BufTy).Contents (Elt F)),
    StableHlo.binary main_v1 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v27 (broadcastInDim S1600000 ![] bcast_S_S1600000 : (⟨S_, .i32⟩ : BufTy).Contents (Elt F) → (⟨S1600000, .i32⟩ : BufTy).Contents (Elt F)),
    StableHlo.binary main_v1 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_v24 main_v30 main_v31 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_3 (constant S_ .f32 0x00000000#32),
    StableHlo.unary main_cst_3 main_v32 (broadcastInDim S100000x128 ![] bcast_S_S100000x128 : (⟨S_, .f32⟩ : BufTy).Contents (Elt F) → (⟨S100000x128, .f32⟩ : BufTy).Contents (Elt F)),
    StableHlo.unary main_v3 main_v33 (broadcastInDim S1600000x1 ![0] bcast_S1600000_S1600000x1_0 : (⟨S1600000, .i32⟩ : BufTy).Contents (Elt F) → (⟨S1600000x1, .i32⟩ : BufTy).Contents (Elt F)),
    StableHlo.ternary main_v32 main_v33 main_v31 main_v34 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v24 main_v34 main_v35 (addf : (⟨S100000x128, .f32⟩ : BufTy).Contents (Elt F) → (⟨S100000x128, .f32⟩ : BufTy).Contents (Elt F) → (⟨S100000x128, .f32⟩ : BufTy).Contents (Elt F)),
    StableHlo.binary main_v35 main_arg6 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v39) main_call2.v0 main_call2.v1 maximumf,
    StableHlo.binary main_v40 main_arg8 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v43 main_v44 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v44) main_call3.v0 main_call3.v1 (cmpf .ogt),
    StableHlo.TRef.nullary main_call3.cst_0 (constant S_ .f32 0x00000000#32),
    StableHlo.TRef.unary main_call3.cst_0 main_call3.v2 (broadcastInDim S100000x128 ![] bcast_S_S100000x128),
    StableHlo.TRef.binary (.of main_v44) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x128 ![] bcast_S_S100000x128),
    StableHlo.TRef.ternary main_call3.v3 main_call3.call0.v1 (.of main_v44) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x128 ![] bcast_S_S100000x128),
    StableHlo.TRef.binary main_call3.v6 main_call3.v5 main_call3.v7 mulf,
    StableHlo.TRef.ternary main_call3.v1 (.of main_v44) main_call3.v7 main_call3.call1.v0 select ]
/-- The buffers stretch 2 writes. -/
def wL2 : List (Ref sig .tc) :=
  [main_c_1, main_v25, main_v26, main_c_2, main_v27, main_v28, main_v29, main_v30, main_v31, main_cst_3, main_v32, main_v33, main_v34, main_v35, main_v36, main_v37, main_v38, main_v39, main_call2.cst.ref, main_call2.v0.ref, main_call2.v1.ref, main_v41, main_v42, main_v43, main_v44, main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref]
theorem hwL2 : (opsL2 : List (HloOp τ sig (Elt F))).Forall fun op => op.writes ⊆ ((wL2).map (Proc.devRef (τ := τ) .tc)).toFinset :=
  ⟨writes_sub_of_mem (y := main_c_1) rfl (by decide),
    writes_sub_of_mem (y := main_v25) rfl (by decide),
    writes_sub_of_mem (y := main_v26) rfl (by decide),
    writes_sub_of_mem (y := main_c_2) rfl (by decide),
    writes_sub_of_mem (y := main_v27) rfl (by decide),
    writes_sub_of_mem (y := main_v28) rfl (by decide),
    writes_sub_of_mem (y := main_v29) rfl (by decide),
    writes_sub_of_mem (y := main_v30) rfl (by decide),
    writes_sub_of_mem (y := main_v31) rfl (by decide),
    writes_sub_of_mem (y := main_cst_3) rfl (by decide),
    writes_sub_of_mem (y := main_v32) rfl (by decide),
    writes_sub_of_mem (y := main_v33) rfl (by decide),
    writes_sub_of_mem (y := main_v34) rfl (by decide),
    writes_sub_of_mem (y := main_v35) rfl (by decide),
    writes_sub_of_mem (y := main_v36) rfl (by decide),
    writes_sub_of_mem (y := main_v37) rfl (by decide),
    writes_sub_of_mem (y := main_v38) rfl (by decide),
    writes_sub_of_mem (y := main_v39) rfl (by decide),
    writes_sub_of_mem (y := main_call2.cst.ref) rfl (by decide),
    writes_sub_of_mem (y := main_call2.v0.ref) rfl (by decide),
    writes_sub_of_mem (y := main_call2.v1.ref) rfl (by decide),
    writes_sub_of_mem (y := main_v41) rfl (by decide),
    writes_sub_of_mem (y := main_v42) rfl (by decide),
    writes_sub_of_mem (y := main_v43) rfl (by decide),
    writes_sub_of_mem (y := main_v44) rfl (by decide),
    writes_sub_of_mem (y := main_call3.cst.ref) rfl (by decide),
    writes_sub_of_mem (y := main_call3.v0.ref) rfl (by decide),
    writes_sub_of_mem (y := main_call3.v1.ref) rfl (by decide),
    writes_sub_of_mem (y := main_call3.cst_0.ref) rfl (by decide),
    writes_sub_of_mem (y := main_call3.v2.ref) rfl (by decide),
    writes_sub_of_mem (y := main_call3.v3.ref) rfl (by decide),
    writes_sub_of_mem (y := main_call3.cst_1.ref) rfl (by decide),
    writes_sub_of_mem (y := main_call3.call0.v0.ref) rfl (by decide),
    writes_sub_of_mem (y := main_call3.call0.v1.ref) rfl (by decide),
    writes_sub_of_mem (y := main_call3.call0.v2.ref) rfl (by decide),
    writes_sub_of_mem (y := main_call3.v5.ref) rfl (by decide),
    writes_sub_of_mem (y := main_call3.cst_2.ref) rfl (by decide),
    writes_sub_of_mem (y := main_call3.v6.ref) rfl (by decide),
    writes_sub_of_mem (y := main_call3.v7.ref) rfl (by decide),
    writes_sub_of_mem (y := main_call3.call1.v0.ref) rfl (by decide)⟩
/-- A buffer stretch 2 does not write keeps its contents. -/
theorem frameL2 (W : Valuation τ sig (Elt F)) {r : Ref sig .tc} (h : r ∉ wL2) :
    after opsL2 W (no_index (Proc.devRef .tc r)) = W (Proc.devRef .tc r) :=
  after_of_writes_sub opsL2 W hwL2 h

/-- Stretch 3: operations 84 … 123. -/
def opsL3 : List (HloOp τ sig (Elt F)) :=
  [ StableHlo.nullary main_c_4 (constantI S_ 32 0#32),
    StableHlo.unary main_c_4 main_v46 (broadcastInDim S1600000 ![] bcast_S_S1600000 : (⟨S_, .i32⟩ : BufTy).Contents (Elt F) → (⟨S1600000, .i32⟩ : BufTy).Contents (Elt F)),
    StableHlo.binary main_v1 main_v46 main_v47 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v48 (broadcastInDim S1600000 ![] bcast_S_S1600000 : (⟨S_, .i32⟩ : BufTy).Contents (Elt F) → (⟨S1600000, .i32⟩ : BufTy).Contents (Elt F)),
    StableHlo.binary main_v1 main_v48 main_v49 (addi : (⟨S1600000, .i32⟩ : BufTy).Contents (Elt F) → (⟨S1600000, .i32⟩ : BufTy).Contents (Elt F) → (⟨S1600000, .i32⟩ : BufTy).Contents (Elt F)),
    StableHlo.ternary main_v47 main_v49 main_v1 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v50 main_v51 (broadcastInDim S1600000x1 ![0] bcast_S1600000_S1600000x1_0 : (⟨S1600000, .i32⟩ : BufTy).Contents (Elt F) → (⟨S1600000x1, .i32⟩ : BufTy).Contents (Elt F)),
    StableHlo.binary main_v45 main_v51 main_v52 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_6 (constant S_ .f32 0x00000000#32),
    StableHlo.unary main_cst_6 main_v53 (broadcastInDim S100000x128 ![] bcast_S_S100000x128 : (⟨S_, .f32⟩ : BufTy).Contents (Elt F) → (⟨S100000x128, .f32⟩ : BufTy).Contents (Elt F)),
    StableHlo.unary main_v3 main_v54 (broadcastInDim S1600000x1 ![0] bcast_S1600000_S1600000x1_0 : (⟨S1600000, .i32⟩ : BufTy).Contents (Elt F) → (⟨S1600000x1, .i32⟩ : BufTy).Contents (Elt F)),
    StableHlo.ternary main_v53 main_v54 main_v52 main_v55 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v45 main_v55 main_v56 (addf : (⟨S100000x128, .f32⟩ : BufTy).Contents (Elt F) → (⟨S100000x128, .f32⟩ : BufTy).Contents (Elt F) → (⟨S100000x128, .f32⟩ : BufTy).Contents (Elt F)),
    StableHlo.binary main_v56 main_arg10 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v60) main_call4.v0 main_call4.v1 maximumf,
    StableHlo.binary main_v61 main_arg12 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v65) main_call5.v0 main_call5.v1 (cmpf .ogt),
    StableHlo.TRef.nullary main_call5.cst_0 (constant S_ .f32 0x00000000#32),
    StableHlo.TRef.unary main_call5.cst_0 main_call5.v2 (broadcastInDim S100000x128 ![] bcast_S_S100000x128),
    StableHlo.TRef.binary (.of main_v65) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x128 ![] bcast_S_S100000x128),
    StableHlo.TRef.ternary main_call5.v3 main_call5.call0.v1 (.of main_v65) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x128 ![] bcast_S_S100000x128),
    StableHlo.TRef.binary main_call5.v6 main_call5.v5 main_call5.v7 mulf,
    StableHlo.TRef.ternary main_call5.v1 (.of main_v65) main_call5.v7 main_call5.call1.v0 select ]
/-- The buffers stretch 3 writes. -/
def wL3 : List (Ref sig .tc) :=
  [main_c_4, main_v46, main_v47, main_c_5, main_v48, main_v49, main_v50, main_v51, main_v52, main_cst_6, main_v53, main_v54, main_v55, main_v56, main_v57, main_v58, main_v59, main_v60, main_call4.cst.ref, main_call4.v0.ref, main_call4.v1.ref, main_v62, main_v63, main_v64, main_v65, main_call5.cst.ref, main_call5.v0.ref, main_call5.v1.ref, main_call5.cst_0.ref, main_call5.v2.ref, main_call5.v3.ref, main_call5.cst_1.ref, main_call5.call0.v0.ref, main_call5.call0.v1.ref, main_call5.call0.v2.ref, main_call5.v5.ref, main_call5.cst_2.ref, main_call5.v6.ref, main_call5.v7.ref, main_call5.call1.v0.ref]
theorem hwL3 : (opsL3 : List (HloOp τ sig (Elt F))).Forall fun op => op.writes ⊆ ((wL3).map (Proc.devRef (τ := τ) .tc)).toFinset :=
  ⟨writes_sub_of_mem (y := main_c_4) rfl (by decide),
    writes_sub_of_mem (y := main_v46) rfl (by decide),
    writes_sub_of_mem (y := main_v47) rfl (by decide),
    writes_sub_of_mem (y := main_c_5) rfl (by decide),
    writes_sub_of_mem (y := main_v48) rfl (by decide),
    writes_sub_of_mem (y := main_v49) rfl (by decide),
    writes_sub_of_mem (y := main_v50) rfl (by decide),
    writes_sub_of_mem (y := main_v51) rfl (by decide),
    writes_sub_of_mem (y := main_v52) rfl (by decide),
    writes_sub_of_mem (y := main_cst_6) rfl (by decide),
    writes_sub_of_mem (y := main_v53) rfl (by decide),
    writes_sub_of_mem (y := main_v54) rfl (by decide),
    writes_sub_of_mem (y := main_v55) rfl (by decide),
    writes_sub_of_mem (y := main_v56) rfl (by decide),
    writes_sub_of_mem (y := main_v57) rfl (by decide),
    writes_sub_of_mem (y := main_v58) rfl (by decide),
    writes_sub_of_mem (y := main_v59) rfl (by decide),
    writes_sub_of_mem (y := main_v60) rfl (by decide),
    writes_sub_of_mem (y := main_call4.cst.ref) rfl (by decide),
    writes_sub_of_mem (y := main_call4.v0.ref) rfl (by decide),
    writes_sub_of_mem (y := main_call4.v1.ref) rfl (by decide),
    writes_sub_of_mem (y := main_v62) rfl (by decide),
    writes_sub_of_mem (y := main_v63) rfl (by decide),
    writes_sub_of_mem (y := main_v64) rfl (by decide),
    writes_sub_of_mem (y := main_v65) rfl (by decide),
    writes_sub_of_mem (y := main_call5.cst.ref) rfl (by decide),
    writes_sub_of_mem (y := main_call5.v0.ref) rfl (by decide),
    writes_sub_of_mem (y := main_call5.v1.ref) rfl (by decide),
    writes_sub_of_mem (y := main_call5.cst_0.ref) rfl (by decide),
    writes_sub_of_mem (y := main_call5.v2.ref) rfl (by decide),
    writes_sub_of_mem (y := main_call5.v3.ref) rfl (by decide),
    writes_sub_of_mem (y := main_call5.cst_1.ref) rfl (by decide),
    writes_sub_of_mem (y := main_call5.call0.v0.ref) rfl (by decide),
    writes_sub_of_mem (y := main_call5.call0.v1.ref) rfl (by decide),
    writes_sub_of_mem (y := main_call5.call0.v2.ref) rfl (by decide),
    writes_sub_of_mem (y := main_call5.v5.ref) rfl (by decide),
    writes_sub_of_mem (y := main_call5.cst_2.ref) rfl (by decide),
    writes_sub_of_mem (y := main_call5.v6.ref) rfl (by decide),
    writes_sub_of_mem (y := main_call5.v7.ref) rfl (by decide),
    writes_sub_of_mem (y := main_call5.call1.v0.ref) rfl (by decide)⟩
/-- A buffer stretch 3 does not write keeps its contents. -/
theorem frameL3 (W : Valuation τ sig (Elt F)) {r : Ref sig .tc} (h : r ∉ wL3) :
    after opsL3 W (no_index (Proc.devRef .tc r)) = W (Proc.devRef .tc r) :=
  after_of_writes_sub opsL3 W hwL3 h

/-- Stretch 4: operations 124 … 136. -/
def opsF : List (HloOp τ sig (Elt F)) :=
  [ StableHlo.binary main_v66 main_arg14 main_v67 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.unary main_arg15 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S100000x1 ![0, 1] bcast_S1x1_S100000x1_0_1 : (⟨S1x1, .f32⟩ : BufTy).Contents (Elt F) → (⟨S100000x1, .f32⟩ : BufTy).Contents (Elt F)),
    StableHlo.binary main_v67 main_v69 main_v70 (addf : (⟨S100000x1, .f32⟩ : BufTy).Contents (Elt F) → (⟨S100000x1, .f32⟩ : BufTy).Contents (Elt F) → (⟨S100000x1, .f32⟩ : BufTy).Contents (Elt F)),
    StableHlo.unary main_v70 main_v71 (Host.negf : (⟨S100000x1, .f32⟩ : BufTy).Contents (Elt F) → (⟨S100000x1, .f32⟩ : BufTy).Contents (Elt F)),
    StableHlo.unary main_v71 main_v72 (Host.exp : (⟨S100000x1, .f32⟩ : BufTy).Contents (Elt F) → (⟨S100000x1, .f32⟩ : BufTy).Contents (Elt F)),
    StableHlo.nullary main_cst_7 (constant S_ .f32 0x3F800000#32),
    StableHlo.unary main_cst_7 main_v73 (broadcastInDim S100000x1 ![] bcast_S_S100000x1 : (⟨S_, .f32⟩ : BufTy).Contents (Elt F) → (⟨S100000x1, .f32⟩ : BufTy).Contents (Elt F)),
    StableHlo.binary main_v73 main_v72 main_v74 (addf : (⟨S100000x1, .f32⟩ : BufTy).Contents (Elt F) → (⟨S100000x1, .f32⟩ : BufTy).Contents (Elt F) → (⟨S100000x1, .f32⟩ : BufTy).Contents (Elt F)),
    StableHlo.nullary main_cst_8 (constant S_ .f32 0x3F800000#32),
    StableHlo.unary main_cst_8 main_v75 (broadcastInDim S100000x1 ![] bcast_S_S100000x1 : (⟨S_, .f32⟩ : BufTy).Contents (Elt F) → (⟨S100000x1, .f32⟩ : BufTy).Contents (Elt F)),
    StableHlo.binary main_v75 main_v74 main_v76 (Host.divf : (⟨S100000x1, .f32⟩ : BufTy).Contents (Elt F) → (⟨S100000x1, .f32⟩ : BufTy).Contents (Elt F) → (⟨S100000x1, .f32⟩ : BufTy).Contents (Elt F)),
    StableHlo.reshape main_v76 main_v77 rfl shapeCasts_S100000x1_S100000 ]
/-- The buffers stretch 4 writes. -/
def wF : List (Ref sig .tc) :=
  [main_v67, main_v68, main_v69, main_v70, main_v71, main_v72, main_cst_7, main_v73, main_v74, main_cst_8, main_v75, main_v76, main_v77]
theorem hwF : (opsF : List (HloOp τ sig (Elt F))).Forall fun op => op.writes ⊆ ((wF).map (Proc.devRef (τ := τ) .tc)).toFinset :=
  ⟨writes_sub_of_mem (y := main_v67) rfl (by decide),
    writes_sub_of_mem (y := main_v68) rfl (by decide),
    writes_sub_of_mem (y := main_v69) rfl (by decide),
    writes_sub_of_mem (y := main_v70) rfl (by decide),
    writes_sub_of_mem (y := main_v71) rfl (by decide),
    writes_sub_of_mem (y := main_v72) rfl (by decide),
    writes_sub_of_mem (y := main_cst_7) rfl (by decide),
    writes_sub_of_mem (y := main_v73) rfl (by decide),
    writes_sub_of_mem (y := main_v74) rfl (by decide),
    writes_sub_of_mem (y := main_cst_8) rfl (by decide),
    writes_sub_of_mem (y := main_v75) rfl (by decide),
    writes_sub_of_mem (y := main_v76) rfl (by decide),
    writes_sub_of_mem (y := main_v77) rfl (by decide)⟩
/-- A buffer stretch 4 does not write keeps its contents. -/
theorem frameF (W : Valuation τ sig (Elt F)) {r : Ref sig .tc} (h : r ∉ wF) :
    after opsF W (no_index (Proc.devRef .tc r)) = W (Proc.devRef .tc r) :=
  after_of_writes_sub opsF W hwF h

theorem ops_split : (ops : List (HloOp τ sig (Elt F))) = opsI ++ (opsL1 ++ (opsL2 ++ (opsL3 ++ opsF))) := rfl

/-! ### What each stretch leaves -/

-- the three host functions over whole tensors stay folded while the folds are compared: the equations never look inside them
attribute [local irreducible] Host.gather Host.scatterAdd

set_option maxRecDepth 8192 in
/-- After stretch 0 the source indices are row 0 of the edge list. -/
theorem I_src (W : Valuation τ sig (Elt F)) :
    after opsI W (no_index (main_v1 : DevRef τ sig)) = src (W (main_arg1 : DevRef τ sig)) := by
  simp only [opsI, after_cons, after_nil]
  rfl

set_option maxRecDepth 8192 in
/-- After stretch 0 the destination indices are row 1 of the edge list. -/
theorem I_dst (W : Valuation τ sig (Elt F)) :
    after opsI W (no_index (main_v3 : DevRef τ sig)) = dst (W (main_arg1 : DevRef τ sig)) := by
  simp only [opsI, after_cons, after_nil]
  rfl

set_option maxRecDepth 8192 in
set_option maxHeartbeats 4000000 in
/-- After stretch 1 its result is layer 1 of the features, the indices and the layer's four parameters it started at. -/
theorem L1_out (W : Valuation τ sig (Elt F)) :
    after opsL1 W (no_index (main_v24 : DevRef τ sig))
      = layerOf (W (main_arg0 : DevRef τ sig)) (W (main_v1 : DevRef τ sig)) (W (main_v3 : DevRef τ sig)) (W (main_arg2 : DevRef τ sig)) (W (main_arg3 : DevRef τ sig)) (W (main_arg4 : DevRef τ sig)) (W (main_arg5 : DevRef τ sig)) := by
  simp only [opsL1, after_cons, after_nil]
  rfl

set_option maxRecDepth 8192 in
set_option maxHeartbeats 4000000 in
/-- After stretch 2 its result is layer 2 of the features, the indices and the layer's four parameters it started at. -/
theorem L2_out (W : Valuation τ sig (Elt F)) :
    after opsL2 W (no_index (main_v45 : DevRef τ sig))
      = layerOf (W (main_v24 : DevRef τ sig)) (W (main_v1 : DevRef τ sig)) (W (main_v3 : DevRef τ sig)) (W (main_arg6 : DevRef τ sig)) (W (main_arg7 : DevRef τ sig)) (W (main_arg8 : DevRef τ sig)) (W (main_arg9 : DevRef τ sig)) := by
  simp only [opsL2, after_cons, after_nil]
  rfl

set_option maxRecDepth 8192 in
set_option maxHeartbeats 4000000 in
/-- After stretch 3 its result is layer 3 of the features, the indices and the layer's four parameters it started at. -/
theorem L3_out (W : Valuation τ sig (Elt F)) :
    after opsL3 W (no_index (main_v66 : DevRef τ sig))
      = layerOf (W (main_v45 : DevRef τ sig)) (W (main_v1 : DevRef τ sig)) (W (main_v3 : DevRef τ sig)) (W (main_arg10 : DevRef τ sig)) (W (main_arg11 : DevRef τ sig)) (W (main_arg12 : DevRef τ sig)) (W (main_arg13 : DevRef τ sig)) := by
  simp only [opsL3, after_cons, after_nil]
  rfl

set_option maxRecDepth 8192 in
set_option maxHeartbeats 4000000 in
/-- After the last stretch the result is the read-out of the features and the two read-out parameters it started at. -/
theorem F_out (W : Valuation τ sig (Elt F)) :
    after opsF W (no_index (main_v77 : DevRef τ sig)) = readout (W (main_v66 : DevRef τ sig)) (W (main_arg14 : DevRef τ sig)) (W (main_arg15 : DevRef τ sig)) := by
  simp only [opsF, after_cons, after_nil]
  rfl

/-! ### The whole line -/

/-- The result buffer after the whole line: `out` of the sixteen arguments' contents. -/
theorem out_eq (V : Valuation τ sig (Elt F)) :
    after ops V (main_v77 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [ops_split, after_append, after_append, after_append, after_append, out_def, F_out]
  simp (disch := decide) only [frameL3, L3_out, frameL2, L2_out, frameL1, L1_out, frameI, I_src, I_dst]

/-- A buffer no stretch writes keeps its contents over the whole line. -/
theorem arg_eq (V : Valuation τ sig (Elt F)) {r : Ref sig .tc} (hI : r ∉ wI) (h1 : r ∉ wL1) (h2 : r ∉ wL2) (h3 : r ∉ wL3)
    (hF : r ∉ wF) : after ops V (Proc.devRef .tc r) = V (Proc.devRef .tc r) := by
  rw [ops_split, after_append, after_append, after_append, after_append]
  exact (frameF _ hF).trans ((frameL3 _ h3).trans ((frameL2 _ h2).trans ((frameL1 _ h1).trans (frameI _ hI))))

/-- On every device, for any float values, from any memory with zero counters: every weakly fair execution of the
    program terminates with the result buffer at `out` of the arguments' initial contents, and the sixteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v77).trans (out_eq _),
      (h c main_arg0).trans (arg_eq _ (by decide) (by decide) (by decide) (by decide) (by decide)),
      (h c main_arg1).trans (arg_eq _ (by decide) (by decide) (by decide) (by decide) (by decide)),
      (h c main_arg2).trans (arg_eq _ (by decide) (by decide) (by decide) (by decide) (by decide)),
      (h c main_arg3).trans (arg_eq _ (by decide) (by decide) (by decide) (by decide) (by decide)),
      (h c main_arg4).trans (arg_eq _ (by decide) (by decide) (by decide) (by decide) (by decide)),
      (h c main_arg5).trans (arg_eq _ (by decide) (by decide) (by decide) (by decide) (by decide)),
      (h c main_arg6).trans (arg_eq _ (by decide) (by decide) (by decide) (by decide) (by decide)),
      (h c main_arg7).trans (arg_eq _ (by decide) (by decide) (by decide) (by decide) (by decide)),
      (h c main_arg8).trans (arg_eq _ (by decide) (by decide) (by decide) (by decide) (by decide)),
      (h c main_arg9).trans (arg_eq _ (by decide) (by decide) (by decide) (by decide) (by decide)),
      (h c main_arg10).trans (arg_eq _ (by decide) (by decide) (by decide) (by decide) (by decide)),
      (h c main_arg11).trans (arg_eq _ (by decide) (by decide) (by decide) (by decide) (by decide)),
      (h c main_arg12).trans (arg_eq _ (by decide) (by decide) (by decide) (by decide) (by decide)),
      (h c main_arg13).trans (arg_eq _ (by decide) (by decide) (by decide) (by decide) (by decide)),
      (h c main_arg14).trans (arg_eq _ (by decide) (by decide) (by decide) (by decide) (by decide)),
      (h c main_arg15).trans (arg_eq _ (by decide) (by decide) (by decide) (by decide) (by decide))⟩)
    (run_seq scopedRefs_eq scopedSems_eq defs main (fun _ => ops) main_eq (fun _ => ops_sub) m ρ)

end Cert.ReferenceIdeal.Hand

end
-- ==== Proof.LibGinHost.lean ====
/-
  The host's spelling of the graph layer and of its scoring head (see the companion module for the functions): plain
  products; a bias vector placed as a row and broadcast down the rows; the `elu` written as `1 · expm1` of the
  argument clamped above at zero, selected against the argument; the logistic function written `1 / (1 + exp (-z))`.
  Each is the function `layer` / `score` of the companion module. The zero and one matrices enter only through their
  entries, so any way of forming them serves. Only `1 · y = y` and the definition of the logistic function are used.
-/
import proofs.«174884_j82179904242305_1_alg».proof.Proof.LibGin

noncomputable section

namespace Cert.LibGin

open Idealize.ShloMosaic Idealize.ShloMosaic.ValueIdx Cert.LibRowMax Cert.LibProduct

variable {a k h b : ℕ}

/-- The host's `elu`, entry by entry. -/
theorem host_elu_eq {s : Shape} (Y Z0 Z0' Z1 O1 : FVec Ideal s .f32) (hz0 : ∀ i, Z0 i = zw) (hz0' : ∀ i, Z0' i = zw)
    (hz1 : ∀ i, Z1 i = zw) (ho : ∀ i, O1 i = ow) :
    select (cmpf .ogt Y Z0) Y (mulf O1 (Host.expm1 (select (cmpf .ogt Y Z0') Z1 Y))) = fun i => elu (Y i) := by
  funext i
  show Scalar.select (Ideal.cmp .ogt (Y i) (Z0 i)) (Y i)
      (O1 i * (Ideal.exp (Scalar.select (Ideal.cmp .ogt (Y i) (Z0' i)) (Z1 i) (Y i)) - 1)) = _
  rw [hz0, hz0', hz1, ho]
  exact elu_host (Y i)

/-- A plain product plus a bias vector placed as a row and broadcast down the rows, at an entry. -/
theorem host_affine_apply (D : DotDims ⟨2, ![a, h]⟩ ⟨2, ![h, b]⟩ ⟨2, ![a, b]⟩)
    (wf : DotDims.WF ⟨2, ![a, h]⟩ ⟨2, ![h, b]⟩ ⟨2, ![a, b]⟩ [1] [0] [0] [1] [] []) (hD : D = plainDims a h b wf)
    (H : FVec Ideal ⟨2, ![a, h]⟩ .f32) (Wb : FVec Ideal ⟨2, ![h, b]⟩ .f32) (βb : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    addf (Host.dotGeneral D none H Wb) (broadcastInDim ⟨2, ![a, b]⟩ ![0, 1] h2 (broadcastInDim ⟨2, ![1, b]⟩ ![1] h1 βb)) (ix2 p q)
      = product H Wb (ix2 p q) + βb (ix1 q) := by
  subst hD
  show FloatOps.dotGeneral (plainDims a h b wf) none _ H Wb (ix2 p q)
      + broadcastInDim ⟨2, ![a, b]⟩ ![0, 1] h2 (broadcastInDim ⟨2, ![1, b]⟩ ![1] h1 βb) (ix2 p q) = _
  rw [dotGeneral_plain_apply wf none _ H Wb p q, broadcastInDim_1b_ab_apply _ h2 p q, broadcastInDim_b_1b_apply βb h1 (0 : Fin 1) q]
  rfl

/-- The host's layer. -/
theorem host_layer_eq (D₁ : DotDims ⟨2, ![a, k]⟩ ⟨2, ![k, h]⟩ ⟨2, ![a, h]⟩)
    (wf₁ : DotDims.WF ⟨2, ![a, k]⟩ ⟨2, ![k, h]⟩ ⟨2, ![a, h]⟩ [1] [0] [0] [1] [] []) (hD₁ : D₁ = plainDims a k h wf₁)
    (D₂ : DotDims ⟨2, ![a, h]⟩ ⟨2, ![h, b]⟩ ⟨2, ![a, b]⟩)
    (wf₂ : DotDims.WF ⟨2, ![a, h]⟩ ⟨2, ![h, b]⟩ ⟨2, ![a, b]⟩ [1] [0] [0] [1] [] []) (hD₂ : D₂ = plainDims a h b wf₂)
    (x g : FVec Ideal ⟨2, ![a, k]⟩ .f32) (Wa : FVec Ideal ⟨2, ![k, h]⟩ .f32) (βa : FVec Ideal ⟨1, ![h]⟩ .f32)
    (Wb : FVec Ideal ⟨2, ![h, b]⟩ .f32) (βb : FVec Ideal ⟨1, ![b]⟩ .f32)
    (h1a : (⟨1, ![h]⟩ : Shape).BroadcastsInDim ⟨2, ![1, h]⟩ ![1]) (h2a : (⟨2, ![1, h]⟩ : Shape).BroadcastsInDim ⟨2, ![a, h]⟩ ![0, 1])
    (h0a : (⟨0, ![]⟩ : Shape).BroadcastsInDim ⟨2, ![a, h]⟩ ![])
    (h1b : (⟨1, ![b]⟩ : Shape).BroadcastsInDim ⟨2, ![1, b]⟩ ![1]) (h2b : (⟨2, ![1, b]⟩ : Shape).BroadcastsInDim ⟨2, ![a, b]⟩ ![0, 1])
    (Y Z0 Z0' Z1 O1 : FVec Ideal ⟨2, ![a, b]⟩ .f32) (hz0 : ∀ i, Z0 i = zw) (hz0' : ∀ i, Z0' i = zw)
    (hz1 : ∀ i, Z1 i = zw) (ho : ∀ i, O1 i = ow)
    (hY : Y = addf (Host.dotGeneral D₂ none
        (maximumf (addf (Host.dotGeneral D₁ none (addf x g) Wa)
            (broadcastInDim ⟨2, ![a, h]⟩ ![0, 1] h2a (broadcastInDim ⟨2, ![1, h]⟩ ![1] h1a βa)))
          (broadcastInDim ⟨2, ![a, h]⟩ ![] h0a (constant (F := Ideal) ⟨0, ![]⟩ .f32 0x00000000#32))) Wb)
        (broadcastInDim ⟨2, ![a, b]⟩ ![0, 1] h2b (broadcastInDim ⟨2, ![1, b]⟩ ![1] h1b βb))) :
    select (cmpf .ogt Y Z0) Y (mulf O1 (Host.expm1 (select (cmpf .ogt Y Z0') Z1 Y)))
      = layer x g Wa (fun e => βa (ix1 e)) Wb (fun q => βb (ix1 q)) := by
  rw [host_elu_eq Y Z0 Z0' Z1 O1 hz0 hz0' hz1 ho]
  subst hY
  rw [host_hidden_eq D₁ wf₁ hD₁ x g Wa βa h1a h2a h0a]
  funext i
  obtain ⟨p, q, rfl⟩ : ∃ (p : Fin a) (q : Fin b), i = ix2 p q := ⟨i 0, i 1, eq_ix2 i⟩
  exact congrArg elu (host_affine_apply D₂ wf₂ hD₂ (hidden x g Wa fun e => βa (ix1 e)) Wb βb h1b h2b p q)

/-- The host's scoring head: `1 / (1 + exp (-(y · lw + lb)))`, a column. -/
theorem host_score_eq (D : DotDims ⟨2, ![a, k]⟩ ⟨2, ![k, 1]⟩ ⟨2, ![a, 1]⟩)
    (wf : DotDims.WF ⟨2, ![a, k]⟩ ⟨2, ![k, 1]⟩ ⟨2, ![a, 1]⟩ [1] [0] [0] [1] [] []) (hD : D = plainDims a k 1 wf)
    (y : FVec Ideal ⟨2, ![a, k]⟩ .f32) (lw : FVec Ideal ⟨2, ![k, 1]⟩ .f32) (lb : FVec Ideal ⟨1, ![1]⟩ .f32)
    (h1 : (⟨1, ![1]⟩ : Shape).BroadcastsInDim ⟨2, ![1, 1]⟩ ![1]) (h2 : (⟨2, ![1, 1]⟩ : Shape).BroadcastsInDim ⟨2, ![a, 1]⟩ ![0, 1])
    (O1 O2 : FVec Ideal ⟨2, ![a, 1]⟩ .f32) (ho1 : ∀ i, O1 i = ow) (ho2 : ∀ i, O2 i = ow) :
    Host.divf O2 (addf O1 (Host.exp (Host.negf (addf (Host.dotGeneral D none y lw)
        (broadcastInDim ⟨2, ![a, 1]⟩ ![0, 1] h2 (broadcastInDim ⟨2, ![1, 1]⟩ ![1] h1 lb))))))
      = score y (fun e => lw (ix2 e (0 : Fin 1))) (lb (ix1 (0 : Fin 1))) := by
  subst hD
  funext i
  obtain ⟨p, u, rfl⟩ : ∃ (p : Fin a) (u : Fin 1), i = ix2 p u := ⟨i 0, i 1, eq_ix2 i⟩
  have hu : u = (0 : Fin 1) := Subsingleton.elim _ _
  subst hu
  show Ideal.div (O2 (ix2 p 0)) (O1 (ix2 p 0) + Ideal.exp (-(FloatOps.dotGeneral (plainDims a k 1 wf) none _ y lw (ix2 p 0)
      + broadcastInDim ⟨2, ![a, 1]⟩ ![0, 1] h2 (broadcastInDim ⟨2, ![1, 1]⟩ ![1] h1 lb) (ix2 p 0)))) = _
  rw [ho1, ho2, show ow = 1 from one_word, dotGeneral_plain_apply wf none _ y lw p 0, broadcastInDim_1b_ab_apply _ h2 p 0,
    broadcastInDim_b_1b_apply lb h1 (0 : Fin 1) 0]
  rfl

end Cert.LibGin

end
-- ==== Proof.Bridge.lean ====
/-
  The two results are one function. Both programs form, three times, the neighbour sum of the current node features
  along the same edges and apply the layer `elu (max ((h + agg h) · Wa + ba) 0 · Wb + bb)` — the kernel block of rows
  by block of rows with rounded factors (rounding is the identity on the extended reals) and `exp y - 1`, the
  reference on whole arrays with `1 · expm1` — and then the logistic function of `h · w + b`, the kernel as a lane sum
  of products with the weight laid out as a row, the reference as a product with the weight column and
  `1 / (1 + exp (-z))`. Layer by layer the kernel's array is the reference's; the neighbour sums are the same host
  operations on the same operands, so they are never opened.
-/
import proofs.«174884_j82179904242305_1_alg».proof.Proof.KernelChain
import proofs.«174884_j82179904242305_1_alg».proof.Proof.RefRun
import proofs.«174884_j82179904242305_1_alg».proof.Proof.LibGinHost

set_option maxRecDepth 16384

noncomputable section

namespace Cert.Bridge

open Idealize.ShloMosaic Idealize.ShloMosaic.TcCoe Idealize.ShloMosaic.ValueIdx Idealize.SL.Sem
open Cert.LibGin Cert.LibRowMax

/-! ## Layout reads -/

/-- A bias vector laid out as a one-row matrix reads the vector. -/
theorem rowV_apply (b : (⟨Cert.KernelIdeal.S128, .f32⟩ : BufTy).Contents (Elt Ideal)) (e : Fin 128) :
    (Cert.KernelIdeal.Hand.rowV b : Cert.KernelIdeal.S1x128.Idx → Elt Ideal .f32) (ix2 (0 : Fin 1) e)
      = (b : Cert.KernelIdeal.S128.Idx → Elt Ideal .f32) (ix1 e) :=
  shapeCast_a_1a_apply (b : Cert.KernelIdeal.S128.Idx → Elt Ideal .f32) _ (0 : Fin 1) e

/-- The head's weight column laid out as a row reads the column. -/
theorem lwRowV_apply (w : (⟨Cert.KernelIdeal.S128x1, .f32⟩ : BufTy).Contents (Elt Ideal)) (e : Fin 128) :
    (Cert.KernelIdeal.Hand.lwRowV w : Cert.KernelIdeal.S1x128.Idx → Elt Ideal .f32) (ix2 (0 : Fin 1) e)
      = (w : Cert.KernelIdeal.S128x1.Idx → Elt Ideal .f32) (ix2 e (0 : Fin 1)) := by
  refine (shapeCast_a_1a_apply _ _ (0 : Fin 1) e).trans ?_
  refine shapeCast_apply (w : Cert.KernelIdeal.S128x1.Idx → Elt Ideal .f32) _ (ix1 e) (ix2 e (0 : Fin 1)) ?_
  rw [Shape.rowMajor_val_two, Shape.rowMajor_val_one]
  show e.val * 1 + 0 = e.val
  omega

/-- The head's bias laid out as a `[1, 1]` matrix reads the bias. -/
theorem lbV_apply (b : (⟨Cert.KernelIdeal.S1, .f32⟩ : BufTy).Contents (Elt Ideal)) :
    (Cert.KernelIdeal.Hand.lbV b : Cert.KernelIdeal.S1x1.Idx → Elt Ideal .f32) (ix2 (0 : Fin 1) (0 : Fin 1))
      = (b : Cert.KernelIdeal.S1.Idx → Elt Ideal .f32) (ix1 (0 : Fin 1)) :=
  shapeCast_a_1a_apply (b : Cert.KernelIdeal.S1.Idx → Elt Ideal .f32) _ (0 : Fin 1) (0 : Fin 1)

/-- A scalar broadcast to any shape reads the scalar. -/
theorem splat_apply {s : Shape} (h0 : (⟨0, ![]⟩ : Shape).BroadcastsInDim s ![]) (v : (⟨0, ![]⟩ : Shape).Idx → Elt Ideal .f32) (i : s.Idx) :
    broadcastInDim s ![] h0 v i = v ix0 :=
  broadcastInDim_apply _ h0 _ i ix0 (fun ax => ax.elim0)

/-! ## The reference's layer and read-out -/

open Cert.ReferenceIdeal Cert.ReferenceIdeal.Gen in
/-- The reference's layer over given edges is the layer of the features and their neighbour sum. -/
theorem ref_layer_eq (x : (⟨S100000x128, .f32⟩ : BufTy).Contents (Elt Ideal)) (s d : (⟨S1600000, .i32⟩ : BufTy).Contents (Elt Ideal))
    (wa : (⟨S128x128, .f32⟩ : BufTy).Contents (Elt Ideal)) (ba : (⟨S128, .f32⟩ : BufTy).Contents (Elt Ideal))
    (wb : (⟨S128x128, .f32⟩ : BufTy).Contents (Elt Ideal)) (bb : (⟨S128, .f32⟩ : BufTy).Contents (Elt Ideal)) :
    Cert.ReferenceIdeal.Hand.layerOf (F := Ideal) x s d wa ba wb bb
      = layer (x : S100000x128.Idx → Elt Ideal .f32) (Cert.ReferenceIdeal.Hand.aggOf (F := Ideal) x s d : S100000x128.Idx → Elt Ideal .f32)
          (wa : S128x128.Idx → Elt Ideal .f32) (fun e => (ba : S128.Idx → Elt Ideal .f32) (ix1 e))
          (wb : S128x128.Idx → Elt Ideal .f32) (fun q => (bb : S128.Idx → Elt Ideal .f32) (ix1 q)) := by
  unfold Cert.ReferenceIdeal.Hand.layerOf Cert.ReferenceIdeal.Hand.elu Cert.ReferenceIdeal.Hand.relu
  exact host_layer_eq dot_S100000x128_S128x128_S100000x128_1_0_0_1_n_n Facts₀.dot_S100000x128_S128x128_S100000x128_1_0_0_1_n_n_wf rfl
    dot_S100000x128_S128x128_S100000x128_1_0_0_1_n_n Facts₀.dot_S100000x128_S128x128_S100000x128_1_0_0_1_n_n_wf rfl
    x (Cert.ReferenceIdeal.Hand.aggOf (F := Ideal) x s d) wa ba wb bb _ _ _ _ _ _ _ _ _ _
    (fun i => splat_apply _ _ i) (fun i => splat_apply _ _ i) (fun i => splat_apply _ _ i) (fun i => splat_apply _ _ i) rfl

open Cert.ReferenceIdeal Cert.ReferenceIdeal.Gen in
/-- The reference's read-out is the score column, flattened. -/
theorem ref_readout_eq (y : (⟨S100000x128, .f32⟩ : BufTy).Contents (Elt Ideal)) (lw : (⟨S128x1, .f32⟩ : BufTy).Contents (Elt Ideal))
    (lb : (⟨S1, .f32⟩ : BufTy).Contents (Elt Ideal)) :
    Cert.ReferenceIdeal.Hand.readout (F := Ideal) y lw lb
      = shapeCast S100000 (score (y : S100000x128.Idx → Elt Ideal .f32) (fun e => (lw : S128x1.Idx → Elt Ideal .f32) (ix2 e (0 : Fin 1)))
          ((lb : S1.Idx → Elt Ideal .f32) (ix1 (0 : Fin 1)))) Facts₀.shapeCasts_S100000x1_S100000 := by
  unfold Cert.ReferenceIdeal.Hand.readout
  rw [host_score_eq dot_S100000x128_S128x1_S100000x1_1_0_0_1_n_n Facts₀.dot_S100000x128_S128x1_S100000x1_1_0_0_1_n_n_wf rfl
    y lw lb _ _ _ _ (fun i => splat_apply _ _ i) (fun i => splat_apply _ _ i)]

/-! ## Layer by layer -/

/-- One layer of the kernel's chain, on features that are the reference's, is the reference's layer: the same
    neighbour sum, the bias rows read as the bias vectors. -/
theorem layer_bridge (x : (⟨Cert.KernelIdeal.S100000x128, .f32⟩ : BufTy).Contents (Elt Ideal))
    (ei : (⟨Cert.KernelIdeal.S2x1600000, .i32⟩ : BufTy).Contents (Elt Ideal))
    (wa : (⟨Cert.KernelIdeal.S128x128, .f32⟩ : BufTy).Contents (Elt Ideal)) (ba : (⟨Cert.KernelIdeal.S128, .f32⟩ : BufTy).Contents (Elt Ideal))
    (wb : (⟨Cert.KernelIdeal.S128x128, .f32⟩ : BufTy).Contents (Elt Ideal)) (bb : (⟨Cert.KernelIdeal.S128, .f32⟩ : BufTy).Contents (Elt Ideal)) :
    layer (x : Cert.KernelIdeal.S100000x128.Idx → Elt Ideal .f32)
        (Cert.KernelIdeal.Hand.aggV x (Cert.KernelIdeal.Hand.srcV ei) (Cert.KernelIdeal.Hand.dstV ei) : Cert.KernelIdeal.S100000x128.Idx → Elt Ideal .f32)
        (wa : Cert.KernelIdeal.S128x128.Idx → Elt Ideal .f32)
        (fun e => (Cert.KernelIdeal.Hand.rowV ba : Cert.KernelIdeal.S1x128.Idx → Elt Ideal .f32) (ix2 (0 : Fin 1) e))
        (wb : Cert.KernelIdeal.S128x128.Idx → Elt Ideal .f32)
        (fun q => (Cert.KernelIdeal.Hand.rowV bb : Cert.KernelIdeal.S1x128.Idx → Elt Ideal .f32) (ix2 (0 : Fin 1) q))
      = Cert.ReferenceIdeal.Hand.layerOf (F := Ideal) x (Cert.ReferenceIdeal.Hand.src ei) (Cert.ReferenceIdeal.Hand.dst ei) wa ba wb bb := by
  rw [ref_layer_eq]
  simp only [rowV_apply]
  rfl

variable (m : (ℓ : Loc Cert.KernelIdeal.nD Cert.KernelIdeal.τ Cert.KernelIdeal.sig) → Buf (Elt Ideal) ℓ) (c : Dev Cert.KernelIdeal.nD)

open Cert.ReferenceIdeal.Hand in
theorem H0K_eq : Cert.KernelIdeal.Hand.H0K m c
    = layerOf (F := Ideal) (m ((c : Thread Cert.KernelIdeal.nD Cert.KernelIdeal.τ).loc Cert.KernelIdeal.main_arg0)) (src (m ((c : Thread Cert.KernelIdeal.nD Cert.KernelIdeal.τ).loc Cert.KernelIdeal.main_arg1))) (dst (m ((c : Thread Cert.KernelIdeal.nD Cert.KernelIdeal.τ).loc Cert.KernelIdeal.main_arg1))) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) := by
  unfold Cert.KernelIdeal.Hand.H0K Cert.KernelIdeal.Hand.sK Cert.KernelIdeal.Hand.dK
  exact layer_bridge _ _ _ _ _ _

open Cert.ReferenceIdeal.Hand in
theorem H1K_eq : Cert.KernelIdeal.Hand.H1K m c
    = layerOf (F := Ideal) (layerOf (F := Ideal) (m ((c : Thread Cert.KernelIdeal.nD Cert.KernelIdeal.τ).loc Cert.KernelIdeal.main_arg0)) (src (m ((c : Thread Cert.KernelIdeal.nD Cert.KernelIdeal.τ).loc Cert.KernelIdeal.main_arg1))) (dst (m ((c : Thread Cert.KernelIdeal.nD Cert.KernelIdeal.τ).loc Cert.KernelIdeal.main_arg1))) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)))
        (src (m ((c : Thread Cert.KernelIdeal.nD Cert.KernelIdeal.τ).loc Cert.KernelIdeal.main_arg1))) (dst (m ((c : Thread Cert.KernelIdeal.nD Cert.KernelIdeal.τ).loc Cert.KernelIdeal.main_arg1))) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) := by
  unfold Cert.KernelIdeal.Hand.H1K Cert.KernelIdeal.Hand.sK Cert.KernelIdeal.Hand.dK
  rw [H0K_eq]
  exact layer_bridge _ _ _ _ _ _

open Cert.ReferenceIdeal.Hand in
theorem H2K_eq : Cert.KernelIdeal.Hand.H2K m c
    = layerOf (F := Ideal) (layerOf (F := Ideal) (layerOf (F := Ideal) (m ((c : Thread Cert.KernelIdeal.nD Cert.KernelIdeal.τ).loc Cert.KernelIdeal.main_arg0)) (src (m ((c : Thread Cert.KernelIdeal.nD Cert.KernelIdeal.τ).loc Cert.KernelIdeal.main_arg1))) (dst (m ((c : Thread Cert.KernelIdeal.nD Cert.KernelIdeal.τ).loc Cert.KernelIdeal.main_arg1))) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)))
        (src (m ((c : Thread Cert.KernelIdeal.nD Cert.KernelIdeal.τ).loc Cert.KernelIdeal.main_arg1))) (dst (m ((c : Thread Cert.KernelIdeal.nD Cert.KernelIdeal.τ).loc Cert.KernelIdeal.main_arg1))) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)))
        (src (m ((c : Thread Cert.KernelIdeal.nD Cert.KernelIdeal.τ).loc Cert.KernelIdeal.main_arg1))) (dst (m ((c : Thread Cert.KernelIdeal.nD Cert.KernelIdeal.τ).loc Cert.KernelIdeal.main_arg1))) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) := by
  unfold Cert.KernelIdeal.Hand.H2K Cert.KernelIdeal.Hand.sK Cert.KernelIdeal.Hand.dK
  rw [H1K_eq]
  exact layer_bridge _ _ _ _ _ _

/-- The kernel's result is the reference's function of the same arguments. -/
theorem outK_eq : Cert.KernelIdeal.Hand.outK m c
    = Cert.ReferenceIdeal.Hand.out (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) := by
  rw [Cert.ReferenceIdeal.Hand.out_def, ref_readout_eq]
  unfold Cert.KernelIdeal.Hand.outK Cert.KernelIdeal.Hand.RK Cert.KernelIdeal.Hand.flatV
  rw [H2K_eq]
  simp only [lwRowV_apply, lbV_apply]

end Cert.Bridge

end
-- ==== Proof.lean ====
/-
  A three-layer sum-aggregating graph network with a logistic scoring head, computed two ways over 100000 nodes with
  128 features and 1600000 edges, and the proof that the two ways agree on the extended reals.

  One layer maps node features `h` to `elu (max ((h + agg h) · Wa + ba) 0 · Wb + bb)`, where row `i` of `agg h` is the
  sum of the rows of `h` at the source nodes of the edges into node `i`; the score of a node is the logistic function of
  its final feature row times a weight column plus a bias. The kernel program forms each neighbour sum on the host and
  computes each layer in a launch over 25 blocks of 4000 rows (the last launch also the scores), its matrix products
  taking factors rounded to a shorter format — the identity on the extended reals — and its `elu` written `exp y - 1`;
  the reference applies the same operations to whole arrays, with `elu` as `1 · expm1` of the argument clamped above
  at zero and the logistic function as `1 / (1 + exp (-z))`.

  The claims: each program runs to its end leaving its arguments unchanged; the idealization of the kernel rewrote
  nothing; and the two idealized programs, from memories agreeing on the arguments, end with equal results — the
  kernel's result is read launch by launch off its run (a row of a layer depends only on that row of its inputs, and
  the blocks tile the rows), the reference's off its list of operations, and layer by layer the two are one function:
  only `1 · y = y`, the definition of the logistic function and the sameness of the two neighbour sums are used, so no
  finiteness of the inputs is needed.
-/
import proofs.«174884_j82179904242305_1_alg».proof.Defs
import proofs.«174884_j82179904242305_1_alg».proof.Proof.Gen.Kernel
import proofs.«174884_j82179904242305_1_alg».proof.Proof.Gen.Kernel.Skeleton
import proofs.«174884_j82179904242305_1_alg».proof.Proof.Gen.Kernel.Launch
import proofs.«174884_j82179904242305_1_alg».proof.Proof.Gen.Kernel.Points
import proofs.«174884_j82179904242305_1_alg».proof.Proof.Gen.Kernel.Frame
import proofs.«174884_j82179904242305_1_alg».proof.Proof.Gen.KernelIdeal
import proofs.«174884_j82179904242305_1_alg».proof.Proof.Gen.KernelIdeal.Skeleton
import proofs.«174884_j82179904242305_1_alg».proof.Proof.Gen.KernelIdeal.Launch
import proofs.«174884_j82179904242305_1_alg».proof.Proof.Gen.KernelIdeal.Points
import proofs.«174884_j82179904242305_1_alg».proof.Proof.Gen.KernelIdeal.Frame
import proofs.«174884_j82179904242305_1_alg».proof.Proof.Gen.ReferenceIdeal
import proofs.«174884_j82179904242305_1_alg».proof.Proof.Gen.Pre_finite_inputs
import proofs.«174884_j82179904242305_1_alg».proof.Proof.Bridge
import Idealize.ShloMosaic.Adequacy
import Idealize.ShloMosaic.Init

noncomputable section

namespace Cert.Proof

open Idealize.ShloMosaic Idealize.SL.Sem

/-- The kernel program, word level: it runs to its end and leaves its arguments unchanged. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The idealized reference: its run, with what it says of the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- The idealization rewrote no operation of the kernel. -/
theorem preserves : Cert.preserves_Kernel_KernelIdeal := trivial

/-- From memories agreeing on the arguments both idealized programs end with the same result: the kernel's run leaves
    its result at the kernel's function of its arguments, the reference's at the reference's function of arguments
    that are the same, and the two functions are one. -/
theorem algebraic : Cert.algebraic_KernelIdeal_ReferenceIdeal := by
  intro m ρ m' ρ' _ hagree
  refine ⟨fun c => Cert.KernelIdeal.Hand.outK m c, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact (Cert.Bridge.outK_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
